-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x256 : Shape := ⟨2, ![64, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S256x128 .f32) (main_arg10 : FVec F S128 .f32) (main_arg11 : FVec F S128x1 .f32) (main_arg12 : FVec F S1 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg11
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S256 .f32) (main_arg7 : FVec F S256x256 .f32) (main_arg8 : FVec F S256 .f32) (main_arg9 : FVec F S256x128 .f32) (main_arg10 : FVec F S128 .f32) (main_arg11 : FVec F S128x1 .f32) (main_arg12 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x64 .f32) (main_arg1 : IVec S2x800000 32) (main_arg2 : IVec S50000 32) (main_arg3 : FVec F S64x256 .f32) (main_arg4 : FVec F S256 .f32) (main_arg5 : FVec F S256x256 .f32) (main_arg6 : FVec F S256 .f32) (main_arg7 : FVec F S256x256 .f32) (main_arg8 : FVec F S256 .f32) (main_arg9 : FVec F S256x128 .f32) (main_arg10 : FVec F S128 .f32) (main_arg11 : FVec F S128x1 .f32) (main_arg12 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x256 .f32 := Host.absf main_arg3
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x256 : Shape := ⟨2, ![64, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S5000x64 : Shape := ⟨2, ![5000, 64]⟩
abbrev S5000x256 : Shape := ⟨2, ![5000, 256]⟩
abbrev S850000x256 : Shape := ⟨2, ![850000, 256]⟩
abbrev S1x256 : Shape := ⟨2, ![1, 256]⟩
abbrev S2048x256 : Shape := ⟨2, ![2048, 256]⟩
abbrev S50000x1 : Shape := ⟨2, ![50000, 1]⟩
abbrev S2048 : Shape := ⟨1, ![2048]⟩
abbrev S2048x1 : Shape := ⟨2, ![2048, 1]⟩
abbrev S1x128 : Shape := ⟨2, ![1, 128]⟩
abbrev S1x1 : Shape := ⟨2, ![1, 1]⟩
abbrev S2048x128 : Shape := ⟨2, ![2048, 128]⟩

abbrev nBuf : Space → Nat
  | .hbm => 127
  | .vmem => 37
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S64x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S50000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S1x800000, .i32⟩
  | .hbm, ⟨18, _⟩ => ⟨S800000, .i32⟩
  | .hbm, ⟨19, _⟩ => ⟨S850000, .i32⟩
  | .hbm, ⟨20, _⟩ => ⟨S_, .f32⟩
  | .hbm, ⟨21, _⟩ => ⟨S850000, .f32⟩
  | .hbm, ⟨22, _⟩ => ⟨S_, .f32⟩
  | .hbm, ⟨23, _⟩ => ⟨S50000, .f32⟩
  | .hbm, ⟨24, _⟩ => ⟨S850000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000, .f32⟩
  | .hbm, ⟨55, _⟩ => ⟨S850000, .f32⟩
  | .hbm, ⟨56, _⟩ => ⟨S50000x256, .f32⟩
  | .hbm, ⟨57, _⟩ => ⟨S_, .i32⟩
  | .hbm, ⟨58, _⟩ => ⟨S850000, .i32⟩
  | .hbm, ⟨59, _⟩ => ⟨S850000, .i1⟩
  | .hbm, ⟨60, _⟩ => ⟨S_, .i32⟩
  | .hbm, ⟨61, _⟩ => ⟨S850000, .i32⟩
  | .hbm, ⟨62, _⟩ => ⟨S850000, .i32⟩
  | .hbm, ⟨63, _⟩ => ⟨S850000, .i32⟩
  | .hbm, ⟨64, _⟩ => ⟨S850000x1, .i32⟩
  | .hbm, ⟨65, _⟩ => ⟨S850000x256, .f32⟩
  | .hbm, ⟨66, _⟩ => ⟨S850000x1, .f32⟩
  | .hbm, ⟨67, _⟩ => ⟨S850000x256, .f32⟩
  | .hbm, ⟨68, _⟩ => ⟨S850000x256, .f32⟩
  | .hbm, ⟨69, _⟩ => ⟨S_, .f32⟩
  | .hbm, ⟨70, _⟩ => ⟨S50000x256, .f32⟩
  | .hbm, ⟨71, _⟩ => ⟨S850000x1, .i32⟩
  | .hbm, ⟨72, _⟩ => ⟨S50000x256, .f32⟩
  | .hbm, ⟨73, _⟩ => ⟨S1x256, .f32⟩
  | .hbm, ⟨74, _⟩ => ⟨S50000x256, .f32⟩
  | .hbm, ⟨75, _⟩ => ⟨S50000x256, .f32⟩
  | .hbm, ⟨76, _⟩ => ⟨S_, .i32⟩
  | .hbm, ⟨77, _⟩ => ⟨S850000, .i32⟩
  | .hbm, ⟨78, _⟩ => ⟨S850000, .i1⟩
  | .hbm, ⟨79, _⟩ => ⟨S_, .i32⟩
  | .hbm, ⟨80, _⟩ => ⟨S850000, .i32⟩
  | .hbm, ⟨81, _⟩ => ⟨S850000, .i32⟩
  | .hbm, ⟨82, _⟩ => ⟨S850000, .i32⟩
  | .hbm, ⟨83, _⟩ => ⟨S850000x1, .i32⟩
  | .hbm, ⟨84, _⟩ => ⟨S850000x256, .f32⟩
  | .hbm, ⟨85, _⟩ => ⟨S850000x1, .f32⟩
  | .hbm, ⟨86, _⟩ => ⟨S850000x256, .f32⟩
  | .hbm, ⟨87, _⟩ => ⟨S850000x256, .f32⟩
  | .hbm, ⟨88, _⟩ => ⟨S_, .f32⟩
  | .hbm, ⟨89, _⟩ => ⟨S50000x256, .f32⟩
  | .hbm, ⟨90, _⟩ => ⟨S850000x1, .i32⟩
  | .hbm, ⟨91, _⟩ => ⟨S50000x256, .f32⟩
  | .hbm, ⟨92, _⟩ => ⟨S1x256, .f32⟩
  | .hbm, ⟨93, _⟩ => ⟨S50000x256, .f32⟩
  | .hbm, ⟨94, _⟩ => ⟨S50000x256, .f32⟩
  | .hbm, ⟨95, _⟩ => ⟨S_, .i32⟩
  | .hbm, ⟨96, _⟩ => ⟨S850000, .i32⟩
  | .hbm, ⟨97, _⟩ => ⟨S850000, .i1⟩
  | .hbm, ⟨98, _⟩ => ⟨S_, .i32⟩
  | .hbm, ⟨99, _⟩ => ⟨S850000, .i32⟩
  | .hbm, ⟨100, _⟩ => ⟨S850000, .i32⟩
  | .hbm, ⟨101, _⟩ => ⟨S850000, .i32⟩
  | .hbm, ⟨102, _⟩ => ⟨S850000x1, .i32⟩
  | .hbm, ⟨103, _⟩ => ⟨S850000x256, .f32⟩
  | .hbm, ⟨104, _⟩ => ⟨S850000x1, .f32⟩
  | .hbm, ⟨105, _⟩ => ⟨S850000x256, .f32⟩
  | .hbm, ⟨106, _⟩ => ⟨S850000x256, .f32⟩
  | .hbm, ⟨107, _⟩ => ⟨S_, .f32⟩
  | .hbm, ⟨108, _⟩ => ⟨S50000x256, .f32⟩
  | .hbm, ⟨109, _⟩ => ⟨S850000x1, .i32⟩
  | .hbm, ⟨110, _⟩ => ⟨S50000x256, .f32⟩
  | .hbm, ⟨111, _⟩ => ⟨S1x256, .f32⟩
  | .hbm, ⟨112, _⟩ => ⟨S50000x256, .f32⟩
  | .hbm, ⟨113, _⟩ => ⟨S_, .f32⟩
  | .hbm, ⟨114, _⟩ => ⟨S2048x256, .f32⟩
  | .hbm, ⟨115, _⟩ => ⟨S50000x1, .i32⟩
  | .hbm, ⟨116, _⟩ => ⟨S2048x256, .f32⟩
  | .hbm, ⟨117, _⟩ => ⟨S_, .f32⟩
  | .hbm, ⟨118, _⟩ => ⟨S50000, .f32⟩
  | .hbm, ⟨119, _⟩ => ⟨S_, .f32⟩
  | .hbm, ⟨120, _⟩ => ⟨S2048, .f32⟩
  | .hbm, ⟨121, _⟩ => ⟨S50000x1, .i32⟩
  | .hbm, ⟨122, _⟩ => ⟨S2048, .f32⟩
  | .hbm, ⟨123, _⟩ => ⟨S2048x1, .f32⟩
  | .hbm, ⟨124, _⟩ => ⟨S1x128, .f32⟩
  | .hbm, ⟨125, _⟩ => ⟨S1x1, .f32⟩
  | .hbm, ⟨126, _⟩ => ⟨S2048x1, .f32⟩
  | .local _ .vmem, ⟨0, _⟩ => ⟨S5000x64, .f32⟩
  | .local _ .vmem, ⟨1, _⟩ => ⟨S5000x64, .f32⟩
  | .local _ .vmem, ⟨2, _⟩ => ⟨S64x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S1x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S256x256, .f32⟩
  | .local _ .vmem, ⟨13, _⟩ => ⟨S5000x256, .f32⟩
  | .local _ .vmem, ⟨14, _⟩ => ⟨S5000x256, .f32⟩
  | .local _ .vmem, ⟨15, _⟩ => ⟨S5000x256, .f32⟩
  | .local _ .vmem, ⟨16, _⟩ => ⟨S5000x256, .f32⟩
  | .local _ .vmem, ⟨17, _⟩ => ⟨S1x256, .f32⟩
  | .local _ .vmem, ⟨18, _⟩ => ⟨S5000x256, .f32⟩
  | .local _ .vmem, ⟨19, _⟩ => ⟨S5000x256, .f32⟩
  | .local _ .vmem, ⟨20, _⟩ => ⟨S5000x256, .f32⟩
  | .local _ .vmem, ⟨21, _⟩ => ⟨S5000x256, .f32⟩
  | .local _ .vmem, ⟨22, _⟩ => ⟨S256x256, .f32⟩
  | .local _ .vmem, ⟨23, _⟩ => ⟨S5000x256, .f32⟩
  | .local _ .vmem, ⟨24, _⟩ => ⟨S5000x256, .f32⟩
  | .local _ .vmem, ⟨25, _⟩ => ⟨S5000x256, .f32⟩
  | .local _ .vmem, ⟨26, _⟩ => ⟨S5000x256, .f32⟩
  | .local _ .vmem, ⟨27, _⟩ => ⟨S1x256, .f32⟩
  | .local _ .vmem, ⟨28, _⟩ => ⟨S5000x256, .f32⟩
  | .local _ .vmem, ⟨29, _⟩ => ⟨S5000x256, .f32⟩
  | .local _ .vmem, ⟨30, _⟩ => ⟨S2048x256, .f32⟩
  | .local _ .vmem, ⟨31, _⟩ => ⟨S2048x1, .f32⟩
  | .local _ .vmem, ⟨32, _⟩ => ⟨S256x128, .f32⟩
  | .local _ .vmem, ⟨33, _⟩ => ⟨S1x128, .f32⟩
  | .local _ .vmem, ⟨34, _⟩ => ⟨S128x1, .f32⟩
  | .local _ .vmem, ⟨35, _⟩ => ⟨S1x1, .f32⟩
  | .local _ .vmem, ⟨36, _⟩ => ⟨S2048x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_10 : Ref sig .tc := ⟨.hbm, 76, rfl⟩
abbrev main_v49 : Ref sig .tc := ⟨.hbm, 77, rfl⟩
abbrev main_v50 : Ref sig .tc := ⟨.hbm, 78, rfl⟩
abbrev main_c_11 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_12 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_13 : Ref sig .tc := ⟨.hbm, 95, rfl⟩
abbrev main_v65 : Ref sig .tc := ⟨.hbm, 96, rfl⟩
abbrev main_v66 : Ref sig .tc := ⟨.hbm, 97, rfl⟩
abbrev main_c_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_15 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_16 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_17 : Ref sig .tc := ⟨.hbm, 117, rfl⟩
abbrev main_v83 : Ref sig .tc := ⟨.hbm, 118, rfl⟩
abbrev main_cst_18 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg3_0 : Ref sig .tc := ⟨.vmem, 33, rfl⟩
abbrev cc6_stg4_0 : Ref sig .tc := ⟨.vmem, 34, rfl⟩
abbrev cc6_stg5_0 : Ref sig .tc := ⟨.vmem, 35, rfl⟩
abbrev cc6_stg6_0 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem1_0 : DmaSem sig := 31
abbrev cc6_sem2_0 : DmaSem sig := 32
abbrev cc6_sem3_0 : DmaSem sig := 33
abbrev cc6_sem4_0 : DmaSem sig := 34
abbrev cc6_sem5_0 : DmaSem sig := 35
abbrev cc6_sem6_0 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S2048x256 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S2048x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S256x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S2048x1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S5000x256_S5000x256_0_0 : ∀ a, (![0, 0] : Fin 2 → Nat) a + S5000x256.size a ≤ S5000x256.size a
  h_S5000x256 : 0 < S5000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x256_S256x256_0_0 : ∀ a, (![0, 0] : Fin 2 → Nat) a + S256x256.size a ≤ S256x256.size a
  h_S256x256 : 0 < S256x256.numel
  bcast_S_S2048x256 : S_.BroadcastsInDim S2048x256 (![] : Fin 0 → Fin S2048x256.rank)
  bcast_S50000_S50000x1_0 : S50000.BroadcastsInDim S50000x1 (![0] : Fin 1 → Fin S50000x1.rank)
  bcast_S_S2048 : S_.BroadcastsInDim S2048 (![] : Fin 0 → Fin S2048.rank)
  shapeCasts_S2048_S2048x1 : S2048.ShapeCasts S2048x1
  shapeCasts_S128_S1x128 : S128.ShapeCasts S1x128
  shapeCasts_S1_S1x1 : S1.ShapeCasts S1x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  broadcasts_S2048x1_S2048x256 : S2048x1.Broadcasts S2048x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x64_S64x256_S5000x256_1_0_0_1_n_n_wf : DotDims.WF S5000x64 S64x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x256_S5000x256_1_0_0_1_n_n_wf : DotDims.WF S5000x256 S256x256 S5000x256 [1] [0] [0] [1] [] []
  scatter_S2048x256_S50000x1_S50000x256_1_0_0_1_wf : ScatterDims.WF S2048x256 S50000x1 S50000x256 [1] [0] [0] 1
  scatter_S2048_S50000x1_S50000_n_0_0_1_wf : ScatterDims.WF S2048 S50000x1 S50000 [] [0] [0] 1
  dot_S2048x256_S256x128_S2048x128_1_0_0_1_n_n_wf : DotDims.WF S2048x256 S256x128 S2048x128 [1] [0] [0] [1] [] []
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x256.size a ≤ S50000x256.size a
  hwx3_2 : ∀ i : grid3.Coords, EltTy.bits .f32 = 32 ∨ (Rect.block (s := S50000x256) S5000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S50000x256.size a
  hwx4_0 : ∀ i : grid4.Coords, EltTy.bits .f32 = 32 ∨ (Rect.block (s := S50000x256) S5000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x256.size a ≤ S50000x256.size a
  hwx4_2 : ∀ i : grid4.Coords, EltTy.bits .f32 = 32 ∨ (Rect.block (s := S50000x256) S5000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x256.size a ≤ S50000x256.size a
  hwx5_0 : ∀ i : grid5.Coords, EltTy.bits .f32 = 32 ∨ (Rect.block (s := S50000x256) S5000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x256.size a ≤ S50000x256.size a
  hwx5_2 : ∀ i : grid5.Coords, EltTy.bits .f32 = 32 ∨ (Rect.block (s := S50000x256) S5000x256.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S2048x256.size a ≤ S2048x256.size a
  hwx6_0 : ∀ i : grid6.Coords, EltTy.bits .f32 = 32 ∨ (Rect.block (s := S2048x256) S2048x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S2048x1.size a ≤ S2048x1.size a
  hwx6_1 : ∀ i : grid6.Coords, EltTy.bits .f32 = 32 ∨ (Rect.block (s := S2048x1) S2048x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x128.size a ≤ S256x128.size a
  hwx6_2 : ∀ i : grid6.Coords, EltTy.bits .f32 = 32 ∨ (Rect.block (s := S256x128) S256x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x1.size a ≤ S128x1.size a
  hwx6_4 : ∀ i : grid6.Coords, EltTy.bits .f32 = 32 ∨ (Rect.block (s := S128x1) S128x1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x1.size a ≤ S1x1.size a
  hwx6_5 : ∀ i : grid6.Coords, EltTy.bits .f32 = 32 ∨ (Rect.block (s := S1x1) S1x1.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S2048x1.size a ≤ S2048x1.size a
  hwx6_6 : ∀ i : grid6.Coords, EltTy.bits .f32 = 32 ∨ (Rect.block (s := S2048x1) S2048x1.size (cc6_transform_6 i) (hinb6_6 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S2048x256_S50000x1_S50000x256_1_0_0_1 : ScatterDims S2048x256 S50000x1 S50000x256 where
  updateWindowDims := [1]
  insertedWindowDims := [0]
  scatterDimsToOperandDims := [0]
  indexVectorDim := 1
  wf := scatter_S2048x256_S50000x1_S50000x256_1_0_0_1_wf
def scatter_S2048_S50000x1_S50000_n_0_0_1 : ScatterDims S2048 S50000x1 S50000 where
  updateWindowDims := []
  insertedWindowDims := [0]
  scatterDimsToOperandDims := [0]
  indexVectorDim := 1
  wf := scatter_S2048_S50000x1_S50000_n_0_0_1_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S5000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S5000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S5000x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v82) S2048x256.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v87) S2048x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg9) S256x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v88) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg11) S128x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v89) S1x1.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v90) S2048x1.size cc6_transform_6 reads6_6 true true 1 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x256 : Shape := ⟨2, ![64, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S2048x256 : Shape := ⟨2, ![2048, 256]⟩
abbrev S50000x1 : Shape := ⟨2, ![50000, 1]⟩
abbrev S2048 : Shape := ⟨1, ![2048]⟩
abbrev S2048x1 : Shape := ⟨2, ![2048, 1]⟩
abbrev S2048x128 : Shape := ⟨2, ![2048, 128]⟩
abbrev S1x128 : Shape := ⟨2, ![1, 128]⟩
abbrev S1x1 : Shape := ⟨2, ![1, 1]⟩

abbrev nBuf : Space → Nat
  | .hbm => 152
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x128, .f32⟩
  | 10 => ⟨S128, .f32⟩
  | 11 => ⟨S128x1, .f32⟩
  | 12 => ⟨S1, .f32⟩
  | 13 => ⟨S50000, .i32⟩
  | 14 => ⟨S1x800000, .i32⟩
  | 15 => ⟨S800000, .i32⟩
  | 16 => ⟨S850000, .i32⟩
  | 17 => ⟨S1x800000, .i32⟩
  | 18 => ⟨S800000, .i32⟩
  | 19 => ⟨S850000, .i32⟩
  | 20 => ⟨S_, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S_, .f32⟩
  | 27 => ⟨S50000, .f32⟩
  | 28 => ⟨S50000, .i1⟩
  | 29 => ⟨S50000, .f32⟩
  | 30 => ⟨S_, .f32⟩
  | 31 => ⟨S50000, .f32⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S50000x256, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x256, .f32⟩
  | 66 => ⟨S850000x1, .f32⟩
  | 67 => ⟨S850000x256, .f32⟩
  | 68 => ⟨S850000x256, .f32⟩
  | 69 => ⟨S_, .f32⟩
  | 70 => ⟨S50000x256, .f32⟩
  | 71 => ⟨S850000x1, .i32⟩
  | 72 => ⟨S50000x256, .f32⟩
  | 73 => ⟨S1x256, .f32⟩
  | 74 => ⟨S50000x256, .f32⟩
  | 75 => ⟨S50000x256, .f32⟩
  | 76 => ⟨S_, .f32⟩
  | 77 => ⟨S50000x256, .f32⟩
  | 78 => ⟨S50000x256, .f32⟩
  | 79 => ⟨S50000x256, .f32⟩
  | 80 => ⟨S_, .i32⟩
  | 81 => ⟨S850000, .i32⟩
  | 82 => ⟨S850000, .i1⟩
  | 83 => ⟨S_, .i32⟩
  | 84 => ⟨S850000, .i32⟩
  | 85 => ⟨S850000, .i32⟩
  | 86 => ⟨S850000, .i32⟩
  | 87 => ⟨S850000x1, .i32⟩
  | 88 => ⟨S850000x256, .f32⟩
  | 89 => ⟨S850000x1, .f32⟩
  | 90 => ⟨S850000x256, .f32⟩
  | 91 => ⟨S850000x256, .f32⟩
  | 92 => ⟨S_, .f32⟩
  | 93 => ⟨S50000x256, .f32⟩
  | 94 => ⟨S850000x1, .i32⟩
  | 95 => ⟨S50000x256, .f32⟩
  | 96 => ⟨S1x256, .f32⟩
  | 97 => ⟨S50000x256, .f32⟩
  | 98 => ⟨S50000x256, .f32⟩
  | 99 => ⟨S_, .f32⟩
  | 100 => ⟨S50000x256, .f32⟩
  | 101 => ⟨S50000x256, .f32⟩
  | 102 => ⟨S50000x256, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000x256, .f32⟩
  | 112 => ⟨S850000x1, .f32⟩
  | 113 => ⟨S850000x256, .f32⟩
  | 114 => ⟨S850000x256, .f32⟩
  | 115 => ⟨S_, .f32⟩
  | 116 => ⟨S50000x256, .f32⟩
  | 117 => ⟨S850000x1, .i32⟩
  | 118 => ⟨S50000x256, .f32⟩
  | 119 => ⟨S1x256, .f32⟩
  | 120 => ⟨S50000x256, .f32⟩
  | 121 => ⟨S50000x256, .f32⟩
  | 122 => ⟨S_, .f32⟩
  | 123 => ⟨S50000x256, .f32⟩
  | 124 => ⟨S50000x256, .f32⟩
  | 125 => ⟨S_, .f32⟩
  | 126 => ⟨S2048x256, .f32⟩
  | 127 => ⟨S50000x1, .i32⟩
  | _ => ⟨S50000x64, .f32⟩

abbrev hbmTy0_1 (i : Nat) : BufTy := match i % 128 with
  | 0 => ⟨S2048x256, .f32⟩
  | 1 => ⟨S_, .f32⟩
  | 2 => ⟨S50000, .f32⟩
  | 3 => ⟨S_, .f32⟩
  | 4 => ⟨S2048, .f32⟩
  | 5 => ⟨S50000x1, .i32⟩
  | 6 => ⟨S2048, .f32⟩
  | 7 => ⟨S_, .f32⟩
  | 8 => ⟨S2048, .f32⟩
  | 9 => ⟨S2048, .f32⟩
  | 10 => ⟨S2048x1, .f32⟩
  | 11 => ⟨S2048x256, .f32⟩
  | 12 => ⟨S2048x256, .f32⟩
  | 13 => ⟨S2048x128, .f32⟩
  | 14 => ⟨S1x128, .f32⟩
  | 15 => ⟨S2048x128, .f32⟩
  | 16 => ⟨S2048x128, .f32⟩
  | 17 => ⟨S_, .f32⟩
  | 18 => ⟨S2048x128, .f32⟩
  | 19 => ⟨S2048x128, .f32⟩
  | 20 => ⟨S2048x1, .f32⟩
  | 21 => ⟨S1x1, .f32⟩
  | 22 => ⟨S2048x1, .f32⟩
  | 23 => ⟨S2048x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call1_cst : Ref sig .tc := ⟨.hbm, 76, rfl⟩
abbrev main_call1_v0 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_v51 : Ref sig .tc := ⟨.hbm, 81, rfl⟩
abbrev main_v52 : Ref sig .tc := ⟨.hbm, 82, rfl⟩
abbrev main_c_11 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_12 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_call2_cst : Ref sig .tc := ⟨.hbm, 99, rfl⟩
abbrev main_call2_v0 : Ref sig .tc := ⟨.hbm, 100, rfl⟩
abbrev main_v67 : Ref sig .tc := ⟨.hbm, 101, rfl⟩
abbrev main_v68 : Ref sig .tc := ⟨.hbm, 102, rfl⟩
abbrev main_c_13 : Ref sig .tc := ⟨.hbm, 103, rfl⟩
abbrev main_v69 : Ref sig .tc := ⟨.hbm, 104, rfl⟩
abbrev main_v70 : Ref sig .tc := ⟨.hbm, 105, rfl⟩
abbrev main_c_14 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_15 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_call3_cst : Ref sig .tc := ⟨.hbm, 122, rfl⟩
abbrev main_call3_v0 : Ref sig .tc := ⟨.hbm, 123, rfl⟩
abbrev main_v85 : Ref sig .tc := ⟨.hbm, 124, rfl⟩
abbrev main_cst_16 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_17 : Ref sig .tc := ⟨.hbm, 129, rfl⟩
abbrev main_v89 : Ref sig .tc := ⟨.hbm, 130, rfl⟩
abbrev main_cst_18 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_19 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_call4_cst : Ref sig .tc := ⟨.hbm, 145, rfl⟩
abbrev main_call4_v0 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S2048x256 : S_.BroadcastsInDim S2048x256 (![] : Fin 0 → Fin S2048x256.rank)
  bcast_S50000_S50000x1_0 : S50000.BroadcastsInDim S50000x1 (![0] : Fin 1 → Fin S50000x1.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x256_0_1 : S2048x1.BroadcastsInDim S2048x256 (![0, 1] : Fin 2 → Fin S2048x256.rank)
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  bcast_S_S2048x128 : S_.BroadcastsInDim S2048x128 (![] : Fin 0 → Fin S2048x128.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x256_S50000x256_1_0_0_1_n_n_wf : DotDims.WF S50000x64 S64x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []
  scatter_S2048x256_S50000x1_S50000x256_1_0_0_1_wf : ScatterDims.WF S2048x256 S50000x1 S50000x256 [1] [0] [0] 1
  scatter_S2048_S50000x1_S50000_n_0_0_1_wf : ScatterDims.WF S2048 S50000x1 S50000 [] [0] [0] 1
  dot_S2048x256_S256x128_S2048x128_1_0_0_1_n_n_wf : DotDims.WF S2048x256 S256x128 S2048x128 [1] [0] [0] [1] [] []
  dot_S2048x128_S128x1_S2048x1_1_0_0_1_n_n_wf : DotDims.WF S2048x128 S128x1 S2048x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S2048x256_S50000x1_S50000x256_1_0_0_1 : ScatterDims S2048x256 S50000x1 S50000x256 where
  updateWindowDims := [1]
  insertedWindowDims := [0]
  scatterDimsToOperandDims := [0]
  indexVectorDim := 1
  wf := scatter_S2048x256_S50000x1_S50000x256_1_0_0_1_wf
def scatter_S2048_S50000x1_S50000_n_0_0_1 : ScatterDims S2048 S50000x1 S50000 where
  updateWindowDims := []
  insertedWindowDims := [0]
  scatterDimsToOperandDims := [0]
  indexVectorDim := 1
  wf := scatter_S2048_S50000x1_S50000_n_0_0_1_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

class Facts : Prop extends Facts₀ where

variable [Facts]
-- ==== Proof.LibLayerLaws.lean ====
/-
  A two-layer mean-aggregation network on the extended reals, read entry by entry.

  One layer sends node features `x`, neighbour sums `s` and a per-node scale to
      elu ( (∑ₖ mean(p,k) · Wl(k,q)) + b(q) + ∑ₖ x(p,k) · Wr(k,q) ),       elu y = y for y > 0, eʸ − 1 otherwise,
  where the mean is written either as the quotient `s(p,k) / c(p)` or as the product `s(p,k) · (1 / c(p))`.
  The two spellings agree whenever `c(p) ≠ 0`: on the extended reals a quotient by a non-zero `c` IS the product with
  `c⁻¹`, and `1 / c = c⁻¹`.  Nothing here distributes a product over a sum, so no entry needs to be finite.

  Also here: the exponential-linear unit in the two spellings a program writes it in, and a matrix product
  `[a, k] × [k, b]` contracting the inner axis, read at `(p, q)` as a sum over `Fin k`.
-/
import Idealize.ShloMosaic.Lib.ValueIdx
import Idealize.ShloMosaic.PureOps.Ideal.Laws
import Idealize.ShloMosaic.PureOps.IdealRules

noncomputable section

open scoped BigOperators

namespace Cert.LayerLaws

open Idealize.ShloMosaic Idealize.ShloMosaic.ValueIdx

/-! ## The exponential-linear unit -/

/-- `elu y = y` above zero, `eʸ − 1` at and below it. -/
def elu1 (y : EReal) : EReal := if 0 < y then y else Ideal.exp y - 1

/-- The binary32 word of `1.0` denotes `1`. -/
theorem one_f32 : Ideal.ofBits .f32 0x3F800000#32 = 1 := IdealRules.sign_bit.ideal_onePat .f32

/-- "select (y > 0) y (exp (min y 0) − 1)" is `elu`: off the positive side `min y 0 = y`. -/
theorem elu_min_form (y : EReal) :
    Scalar.select (Ideal.cmp .ogt y (Ideal.ofBits .f32 0x00000000#32)) y
        (Ideal.exp (min y (Ideal.ofBits .f32 0x00000000#32)) - Ideal.ofBits .f32 0x3F800000#32) = elu1 y := by
  rw [Ideal.ofBits_zero_f32, one_f32]
  unfold elu1 Scalar.select Ideal.cmp
  by_cases h : 0 < y
  · simp [h]
  · have hy : y ≤ 0 := not_lt.mp h
    simp [h, min_eq_left hy]

/-- "select (y > 0) y (1 · expm1 (select (y > 0) 0 y))" is `elu` too: `expm1 z = eᶻ − 1` and `1 · z = z`. -/
theorem elu_expm1_form (y : EReal) :
    Scalar.select (Ideal.cmp .ogt y (Ideal.ofBits .f32 0x00000000#32)) y
        (Ideal.ofBits .f32 0x3F800000#32 *
          (Ideal.exp (Scalar.select (Ideal.cmp .ogt y (Ideal.ofBits .f32 0x00000000#32)) (Ideal.ofBits .f32 0x00000000#32) y) - 1))
      = elu1 y := by
  rw [Ideal.ofBits_zero_f32, one_f32]
  unfold elu1 Scalar.select Ideal.cmp
  by_cases h : 0 < y
  · simp [h]
  · simp [h]

/-! ## Quotient and reciprocal -/

/-- A product with the reciprocal `1 / c` of a non-zero `c` is the quotient by `c`. -/
theorem mul_one_div (a c : EReal) (hc : c ≠ 0) :
    a * Ideal.div (Ideal.ofBits .f32 0x3F800000#32) c = Ideal.div a c := by
  rw [one_f32]
  unfold Ideal.div
  rw [if_neg hc, if_neg hc, one_mul]

/-- A maximum with `1.0` is not zero. -/
theorem max_one_ne_zero (a : EReal) : max a (Ideal.ofBits .f32 0x3F800000#32) ≠ 0 := by
  rw [one_f32]
  exact ne_of_gt (lt_of_lt_of_le zero_lt_one (le_max_right a 1))

/-! ## The layer, entry by entry -/

/-- Arrays of extended reals of shape `[n, k]`. -/
abbrev Mat (n k : ℕ) := (⟨2, ![n, k]⟩ : Shape).Idx → EReal

variable {n : ℕ}

/-- A layer before its activation at `(p, q)`, the mean written as a product with a per-row scale `[n, 1]`
    and the bias as a row `[1, 64]`. -/
def preMul (x s : Mat n 64) (inv : Mat n 1) (Wl : Mat 64 64) (b : Mat 1 64) (Wr : Mat 64 64) (p : Fin n) (q : Fin 64) : EReal :=
  (∑ k : Fin 64, (s (ix2 p k) * inv (ix2 p (0 : Fin 1))) * Wl (ix2 k q)) + b (ix2 (0 : Fin 1) q)
    + ∑ k : Fin 64, x (ix2 p k) * Wr (ix2 k q)

/-- The layer with that spelling, as an array. -/
def layerMul (x s : Mat n 64) (inv : Mat n 1) (Wl : Mat 64 64) (b : Mat 1 64) (Wr : Mat 64 64) : Mat n 64 :=
  fun i => elu1 (preMul x s inv Wl b Wr ⟨(i 0).val, idx2_lt0 i⟩ ⟨(i 1).val, idx2_lt1 i⟩)

theorem layerMul_apply (x s : Mat n 64) (inv : Mat n 1) (Wl : Mat 64 64) (b : Mat 1 64) (Wr : Mat 64 64) (p : Fin n) (q : Fin 64) :
    layerMul x s inv Wl b Wr (ix2 p q) = elu1 (preMul x s inv Wl b Wr p q) := rfl

/-- A final linear map of an `[n, 64]` array at `(p, q)`, its bias a row `[1, 64]`. -/
def linRow (h : Mat n 64) (W : Mat 64 64) (b : Mat 1 64) : Mat n 64 :=
  fun i => (∑ k : Fin 64, h (ix2 (⟨(i 0).val, idx2_lt0 i⟩ : Fin n) k) * W (ix2 k (⟨(i 1).val, idx2_lt1 i⟩ : Fin 64)))
    + b (ix2 (0 : Fin 1) (⟨(i 1).val, idx2_lt1 i⟩ : Fin 64))

theorem linRow_apply (h : Mat n 64) (W : Mat 64 64) (b : Mat 1 64) (p : Fin n) (q : Fin 64) :
    linRow h W b (ix2 p q) = (∑ k : Fin 64, h (ix2 p k) * W (ix2 k q)) + b (ix2 (0 : Fin 1) q) := rfl

/-- A layer before its activation at `(p, q)`, the mean written as a quotient by a per-node count `[n]`
    and the bias as a vector `[64]`. -/
def preDiv (x s : Mat n 64) (c : (⟨1, ![n]⟩ : Shape).Idx → EReal) (Wl : Mat 64 64) (b : (⟨1, ![64]⟩ : Shape).Idx → EReal)
    (Wr : Mat 64 64) (p : Fin n) (q : Fin 64) : EReal :=
  (∑ k : Fin 64, Ideal.div (s (ix2 p k)) (c (ix1 p)) * Wl (ix2 k q)) + b (ix1 q)
    + ∑ k : Fin 64, x (ix2 p k) * Wr (ix2 k q)

/-- The two spellings of a layer agree when the scale is the reciprocal of a count that is nowhere zero and the
    bias row is the bias vector. -/
theorem preMul_eq_preDiv (x s : Mat n 64) (inv : Mat n 1) (c : (⟨1, ![n]⟩ : Shape).Idx → EReal)
    (Wl : Mat 64 64) (b2 : Mat 1 64) (b : (⟨1, ![64]⟩ : Shape).Idx → EReal) (Wr : Mat 64 64) (p : Fin n) (q : Fin 64)
    (hinv : inv (ix2 p (0 : Fin 1)) = Ideal.div (Ideal.ofBits .f32 0x3F800000#32) (c (ix1 p))) (hc : c (ix1 p) ≠ 0)
    (hb : b2 (ix2 (0 : Fin 1) q) = b (ix1 q)) :
    preMul x s inv Wl b2 Wr p q = preDiv x s c Wl b Wr p q := by
  unfold preMul preDiv
  rw [hinv, hb]
  refine congrArg (· + _) (congrArg (· + _) (Finset.sum_congr rfl fun k _ => ?_))
  rw [mul_one_div _ _ hc]

/-! ## A matrix product contracting the inner axis -/

variable {a k b : ℕ} {φ₁ φ₂ : FTy}

/-- The contraction sum of `[a, k] × [k, b]` at entry `(p, q)`, re-indexed by the contracted coordinate — from four
    facts about the dimension record's operand indices, which each use proves by evaluating its record. -/
theorem sum_inner (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

end Cert.LayerLaws

end
-- ==== Proof.LibDenseStages.lean ====
/-
  The dense stages of a graph convolution network on the extended reals, read entry by entry.

  A matrix product `[a, k] × [k, b]` at `(p, q)` is the sum over the inner coordinate of the products of row `p` and
  column `q`; a bias row `[1, b]` added to every row and clamped below at zero is `max (x(p,q) + r(0,q)) 0`.  Both read
  row `p` of their first operand only, so a tile of rows of the result is the result of the tile: that is all a
  row-blocked computation needs, and no entry has to be finite (nothing here distributes a product over a sum).
-/
import Idealize.ShloMosaic.Lib.ValueIdx
import Idealize.ShloMosaic.Lib.Pipeline.Value
import Idealize.ShloMosaic.Lib.ValueLayout
import Idealize.ShloMosaic.PureOps.Ideal.Laws
import proofs.«142709_j22333829939473_1_alg».proof.Proof.LibLayerLaws

noncomputable section

open scoped BigOperators

namespace Cert.Gcn

open Idealize.ShloMosaic Idealize.ShloMosaic.ValueIdx Cert.LayerLaws

variable {a k b n N : ℕ} {φ₁ φ₂ : FTy}

/-! ## The two stages -/

/-- The matrix product, as an array. -/
def mm (x : Mat a k) (w : Mat k b) : Mat a b :=
  fun i => ∑ j : Fin k, x (ix2 (⟨(i 0).val, idx2_lt0 i⟩ : Fin a) j) * w (ix2 j (⟨(i 1).val, idx2_lt1 i⟩ : Fin b))

theorem mm_apply (x : Mat a k) (w : Mat k b) (p : Fin a) (q : Fin b) :
    mm x w (ix2 p q) = ∑ j : Fin k, x (ix2 p j) * w (ix2 j q) := rfl

/-- A bias row added to every row, then the positive part. -/
def biasRelu (x : Mat a b) (r : Mat 1 b) : Mat a b :=
  fun i => max (x i + r (ix2 (0 : Fin 1) (⟨(i 1).val, idx2_lt1 i⟩ : Fin b))) 0

theorem biasRelu_apply (x : Mat a b) (r : Mat 1 b) (p : Fin a) (q : Fin b) :
    biasRelu x r (ix2 p q) = max (x (ix2 p q) + r (ix2 (0 : Fin 1) q)) 0 := rfl

/-- A bias row added to every row. -/
def addRow (x : Mat a b) (r : Mat 1 b) : Mat a b :=
  fun i => x i + r (ix2 (0 : Fin 1) (⟨(i 1).val, idx2_lt1 i⟩ : Fin b))

theorem addRow_apply (x : Mat a b) (r : Mat 1 b) (p : Fin a) (q : Fin b) :
    addRow x r (ix2 p q) = x (ix2 p q) + r (ix2 (0 : Fin 1) q) := rfl

/-- A vector as a one-row array. -/
def rowVec (v : (⟨1, ![b]⟩ : Shape).Idx → EReal) : Mat 1 b :=
  fun i => v (ix1 (⟨(i 1).val, idx2_lt1 i⟩ : Fin b))

theorem rowVec_apply (v : (⟨1, ![b]⟩ : Shape).Idx → EReal) (u : Fin 1) (q : Fin b) : rowVec v (ix2 u q) = v (ix1 q) := rfl

/-- A vector recast as `[1, b]` is that row. -/
theorem shapeCast_rowVec (v : (⟨1, ![b]⟩ : Shape).Idx → EReal) (h : (⟨1, ![b]⟩ : Shape).ShapeCasts ⟨2, ![1, b]⟩) :
    shapeCast ⟨2, ![1, b]⟩ v h = rowVec v := by
  funext i
  obtain ⟨u, q, rfl⟩ : ∃ (u : Fin 1) (q : Fin b), i = ix2 u q := ⟨i 0, i 1, eq_ix2 i⟩
  exact shapeCast_a_1a_apply v h u q

/-- A vector broadcast along a new leading unit axis is that row too. -/
theorem bcast_rowVec (v : (⟨1, ![b]⟩ : Shape).Idx → EReal) (h : (⟨1, ![b]⟩ : Shape).BroadcastsInDim ⟨2, ![1, b]⟩ ![1]) :
    broadcastInDim ⟨2, ![1, b]⟩ ![1] h v = rowVec v := by
  funext i
  obtain ⟨u, q, rfl⟩ : ∃ (u : Fin 1) (q : Fin b), i = ix2 u q := ⟨i 0, i 1, eq_ix2 i⟩
  refine broadcastInDim_apply ![1] h v (ix2 u q) (ix1 q) fun ax => ?_
  match ax with
  | ⟨0, _⟩ =>
    show q.val = if b = 1 then 0 else q.val
    split
    · have := q.isLt; omega
    · rfl

/-- A one-row array broadcast over `a` rows, read at `(p, q)`. -/
theorem bcast_rows_apply (r : Mat 1 b) (h : (⟨2, ![1, b]⟩ : Shape).BroadcastsInDim ⟨2, ![a, b]⟩ ![0, 1]) (p : Fin a) (q : Fin b) :
    broadcastInDim ⟨2, ![a, b]⟩ ![0, 1] h r (ix2 p q) = r (ix2 (0 : Fin 1) q) := by
  refine broadcastInDim_apply ![0, 1] h r (ix2 p q) (ix2 (0 : Fin 1) q) fun ax => ?_
  match ax with
  | ⟨0, _⟩ => rfl
  | ⟨1, _⟩ =>
    show q.val = if b = 1 then 0 else q.val
    split
    · have := q.isLt; omega
    · rfl

/-- A scalar broadcast to any shape, read anywhere. -/
theorem bcast_scalar_apply {t : Shape} (x : (⟨0, ![]⟩ : Shape).Idx → EReal) (h : (⟨0, ![]⟩ : Shape).BroadcastsInDim t ![]) (j : t.Idx) :
    broadcastInDim t ![] h x j = x ix0 :=
  broadcastInDim_apply ![] h x j ix0 fun ax => ax.elim0

/-! ## A tile of rows of a stage is the stage of the tile -/

theorem mm_rows (e : Fin n → Fin N) (x : Mat n k) (X : Mat N k) (w : Mat k b)
    (hx : ∀ r j, x (ix2 r j) = X (ix2 (e r) j)) (r : Fin n) (q : Fin b) :
    mm x w (ix2 r q) = mm X w (ix2 (e r) q) := by
  rw [mm_apply, mm_apply]
  exact Finset.sum_congr rfl fun j _ => by rw [hx r j]

theorem biasRelu_rows (e : Fin n → Fin N) (x : Mat n b) (X : Mat N b) (r0 : Mat 1 b)
    (hx : ∀ r q, x (ix2 r q) = X (ix2 (e r) q)) (r : Fin n) (q : Fin b) :
    biasRelu x r0 (ix2 r q) = biasRelu X r0 (ix2 (e r) q) := by
  rw [biasRelu_apply, biasRelu_apply, hx r q]

/-! ## The two spellings of a product: the accelerator's, into a zero accumulator, and the host's -/

/-- A `[a, k] × [k, b]` product into a zero accumulator at `(p, q)`, from the four facts about the record's operand indices. -/
theorem matmul_zero_apply (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (x : FVec Ideal ⟨2, ![a, k]⟩ φ₁) (w : FVec Ideal ⟨2, ![k, b]⟩ φ₂) (p : Fin a) (q : Fin b) :
    FloatOps.matmul D none x w (constant ⟨2, ![a, b]⟩ .f32 0x00000000#32) (ix2 p q) = ∑ j : Fin k, x (ix2 p j) * w (ix2 j q) :=
  (Ideal.matmul_constant_zero_apply D none x w (ix2 p q)).trans (sum_inner D hr hs hl0 hl1 hr0 hr1 x w p q)

/-- The host's product at `(p, q)`, the same way. -/
theorem dotGeneral_apply (D : DotDims ⟨2, ![a, k]⟩ ⟨2, ![k, b]⟩ ⟨2, ![a, b]⟩) (sched : HostSchedule)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (x : FVec Ideal ⟨2, ![a, k]⟩ φ₁) (w : FVec Ideal ⟨2, ![k, b]⟩ φ₂) (p : Fin a) (q : Fin b) :
    FloatOps.dotGeneral D none sched x w (ix2 p q) = ∑ j : Fin k, x (ix2 p j) * w (ix2 j q) :=
  (Ideal.dotGeneral_apply D none sched x w (ix2 p q)).trans (sum_inner D hr hs hl0 hl1 hr0 hr1 x w p q)

end Cert.Gcn

end
-- ==== Proof.LibVectorStages.lean ====
/-
  The vector spellings of the dense stages of a graph convolution network, on the extended reals, as whole arrays.

  A kernel body writes a matrix product as a product into an accumulator of zeros, a bias as a one-row array
  broadcast over the rows, a clamp as a maximum with a splat of the zero word, and a per-row scale as a one-column
  array broadcast over the columns.  Each is the corresponding stage of `Cert.Gcn` (the product `mm`, `biasRelu`,
  `addRow`) or the row-scaled quotient below, entry by entry; nothing here needs an entry to be finite.
-/
import Idealize.ShloMosaic.Lib.ValueIdx
import Idealize.ShloMosaic.Lib.Pipeline.Value
import Idealize.ShloMosaic.Lib.ValueLayout
import Idealize.ShloMosaic.PureOps.Ideal.Laws
import proofs.«142709_j22333829939473_1_alg».proof.Proof.LibDenseStages

noncomputable section

open scoped BigOperators

namespace Cert.Gcn

open Idealize.ShloMosaic Idealize.ShloMosaic.ValueIdx Cert.LayerLaws

variable {a k b : ℕ} {φ₁ φ₂ : FTy}

/-! ## A record that contracts the inner axis -/

/-- The facts about a dimension record that make its product the sum over the inner coordinate. -/
structure Inner (D : DotDims ⟨2, ![a, k]⟩ ⟨2, ![k, b]⟩ ⟨2, ![a, b]⟩) : Prop where
  rank : D.contr.rank = 1
  size : D.contr.size ⟨0, by rw [rank]; exact Nat.zero_lt_one⟩ = k
  l0 : ∀ i q, (D.lhsIdx i q 0).val = (i 0).val
  l1 : ∀ i q, (D.lhsIdx i q 1).val = (q ⟨0, by rw [rank]; exact Nat.zero_lt_one⟩).val
  r0 : ∀ i q, (D.rhsIdx i q 0).val = (q ⟨0, by rw [rank]; exact Nat.zero_lt_one⟩).val
  r1 : ∀ i q, (D.rhsIdx i q 1).val = (i 1).val

/-- A product into a zero accumulator is the matrix product. -/
theorem matmul_zero_eq_mm {D : DotDims ⟨2, ![a, k]⟩ ⟨2, ![k, b]⟩ ⟨2, ![a, b]⟩} (hD : Inner D)
    (x : FVec Ideal ⟨2, ![a, k]⟩ φ₁) (w : FVec Ideal ⟨2, ![k, b]⟩ φ₂) :
    FloatOps.matmul D none x w (constant ⟨2, ![a, b]⟩ .f32 0x00000000#32) = mm x w := by
  funext i
  obtain ⟨p, q, rfl⟩ : ∃ (p : Fin a) (q : Fin b), i = ix2 p q := ⟨i 0, i 1, eq_ix2 i⟩
  exact matmul_zero_apply D hD.rank hD.size hD.l0 hD.l1 hD.r0 hD.r1 x w p q

/-- The host's product is the matrix product too. -/
theorem dotGeneral_eq_mm {D : DotDims ⟨2, ![a, k]⟩ ⟨2, ![k, b]⟩ ⟨2, ![a, b]⟩} (hD : Inner D) (sched : HostSchedule)
    (x : FVec Ideal ⟨2, ![a, k]⟩ φ₁) (w : FVec Ideal ⟨2, ![k, b]⟩ φ₂) :
    FloatOps.dotGeneral D none sched x w = mm x w := by
  funext i
  obtain ⟨p, q, rfl⟩ : ∃ (p : Fin a) (q : Fin b), i = ix2 p q := ⟨i 0, i 1, eq_ix2 i⟩
  exact dotGeneral_apply D sched hD.rank hD.size hD.l0 hD.l1 hD.r0 hD.r1 x w p q

/-! ## Rows and columns broadcast by `vector.broadcast` -/

/-- A one-row array broadcast over `a` rows, read at `(p, q)`. -/
theorem broadcastTo_rows_apply (r : Mat 1 b) (h : (⟨2, ![1, b]⟩ : Shape).Broadcasts ⟨2, ![a, b]⟩) (p : Fin a) (q : Fin b) :
    broadcastTo ⟨2, ![a, b]⟩ r h (ix2 p q) = r (ix2 (0 : Fin 1) q) := by
  refine broadcastTo_apply r h (ix2 p q) (ix2 (0 : Fin 1) q) fun ax => ?_
  match ax with
  | ⟨0, _⟩ => rfl
  | ⟨1, _⟩ =>
    show q.val = if b = 1 then 0 else q.val
    split
    · have := q.isLt; omega
    · rfl

/-- A one-column array broadcast over `b` columns, read at `(p, q)`. -/
theorem broadcastTo_cols_apply (c : Mat a 1) (h : (⟨2, ![a, 1]⟩ : Shape).Broadcasts ⟨2, ![a, b]⟩) (p : Fin a) (q : Fin b) :
    broadcastTo ⟨2, ![a, b]⟩ c h (ix2 p q) = c (ix2 p (0 : Fin 1)) := by
  refine broadcastTo_apply c h (ix2 p q) (ix2 p (0 : Fin 1)) fun ax => ?_
  match ax with
  | ⟨0, _⟩ =>
    show p.val = if a = 1 then 0 else p.val
    split
    · have := p.isLt; omega
    · rfl
  | ⟨1, _⟩ => rfl

/-! ## The stages in their vector spelling -/

/-- "add the broadcast row, then the maximum with a splat of the zero word" is `biasRelu`. -/
theorem vector_biasRelu (x : Mat a b) (r : Mat 1 b) (h : (⟨2, ![1, b]⟩ : Shape).Broadcasts ⟨2, ![a, b]⟩) :
    maximumf (F := Ideal) (φ := .f32) (addf x (broadcastTo ⟨2, ![a, b]⟩ r h))
      (broadcast ⟨2, ![a, b]⟩ (Ideal.ofBits .f32 0x00000000#32)) = biasRelu x r := by
  funext i
  obtain ⟨p, q, rfl⟩ : ∃ (p : Fin a) (q : Fin b), i = ix2 p q := ⟨i 0, i 1, eq_ix2 i⟩
  rw [maximumf_apply, addf_apply, broadcast_apply, broadcastTo_rows_apply, biasRelu_apply, Ideal.ofBits_zero_f32]

/-- "add the broadcast row" is `addRow`. -/
theorem vector_addRow (x : Mat a b) (r : Mat 1 b) (h : (⟨2, ![1, b]⟩ : Shape).Broadcasts ⟨2, ![a, b]⟩) :
    addf (F := Ideal) (φ := .f32) x (broadcastTo ⟨2, ![a, b]⟩ r h) = addRow x r := by
  funext i
  obtain ⟨p, q, rfl⟩ : ∃ (p : Fin a) (q : Fin b), i = ix2 p q := ⟨i 0, i 1, eq_ix2 i⟩
  rw [addf_apply, broadcastTo_rows_apply, addRow_apply]

/-- Every row of `s` divided by that row's entry of a column clamped below at the word `lo`. -/
def rowQuot (lo : EReal) (s : Mat a b) (c : Mat a 1) : Mat a b :=
  fun i => Ideal.div (s i) (max (c (ix2 (⟨(i 0).val, idx2_lt0 i⟩ : Fin a) (0 : Fin 1))) lo)

theorem rowQuot_apply (lo : EReal) (s : Mat a b) (c : Mat a 1) (p : Fin a) (q : Fin b) :
    rowQuot lo s c (ix2 p q) = Ideal.div (s (ix2 p q)) (max (c (ix2 p (0 : Fin 1))) lo) := rfl

/-- "divide by the broadcast of the column's maximum with a splat" is `rowQuot`. -/
theorem vector_rowQuot (lo : EReal) (s : Mat a b) (c : Mat a 1) (h : (⟨2, ![a, 1]⟩ : Shape).Broadcasts ⟨2, ![a, b]⟩) :
    divf (F := Ideal) (φ := .f32) s (broadcastTo ⟨2, ![a, b]⟩ (maximumf (F := Ideal) (φ := .f32) c (broadcast ⟨2, ![a, 1]⟩ lo)) h)
      = rowQuot lo s c := by
  funext i
  obtain ⟨p, q, rfl⟩ : ∃ (p : Fin a) (q : Fin b), i = ix2 p q := ⟨i 0, i 1, eq_ix2 i⟩
  rw [divf_apply, broadcastTo_cols_apply, maximumf_apply, broadcast_apply, rowQuot_apply]

/-- The pooled head: every row of the sums divided by that graph's count clamped below at `lo`, a dense layer clamped at
    zero, a dense layer. -/
def pooledHead {g h j : ℕ} (lo : EReal) (s : Mat g h) (c : Mat g 1) (wl : Mat h j) (bl : Mat 1 j) (wo : Mat j 1) (bo : Mat 1 1) :
    Mat g 1 :=
  addRow (mm (biasRelu (mm (rowQuot lo s c) wl) bl) wo) bo

end Cert.Gcn

end
-- ==== Proof.LibHostStages.lean ====
/-
  The host's spellings of the dense stages of a graph convolution network, on the extended reals, as whole arrays.

  The host writes a bias as a vector broadcast to one row and then down the rows, a clamp as a maximum with a broadcast
  scalar, and a per-row scale as a vector broadcast to one column and then across the columns.  Each is the
  corresponding stage of `Cert.Gcn` (`biasRelu`, `addRow`, `rowQuot`) of the vector as a one-row or one-column array.
-/
import proofs.«142709_j22333829939473_1_alg».proof.Proof.LibVectorStages

noncomputable section

namespace Cert.Gcn

open Idealize.ShloMosaic Idealize.ShloMosaic.ValueIdx Cert.LayerLaws

variable {a b : ℕ}

/-- A vector as a one-column array. -/
def colVec (v : (⟨1, ![a]⟩ : Shape).Idx → EReal) : Mat a 1 := fun i => v (ix1 (⟨(i 0).val, idx2_lt0 i⟩ : Fin a))

theorem colVec_apply (v : (⟨1, ![a]⟩ : Shape).Idx → EReal) (p : Fin a) (u : Fin 1) : colVec v (ix2 p u) = v (ix1 p) := rfl

/-- A vector broadcast along a new trailing unit axis is that column. -/
theorem bcast_colVec (v : (⟨1, ![a]⟩ : Shape).Idx → EReal) (h : (⟨1, ![a]⟩ : Shape).BroadcastsInDim ⟨2, ![a, 1]⟩ ![0]) :
    broadcastInDim ⟨2, ![a, 1]⟩ ![0] h v = colVec v := by
  funext i
  obtain ⟨p, u, rfl⟩ : ∃ (p : Fin a) (u : Fin 1), i = ix2 p u := ⟨i 0, i 1, eq_ix2 i⟩
  refine broadcastInDim_apply ![0] h v (ix2 p u) (ix1 p) fun ax => ?_
  match ax with
  | ⟨0, _⟩ =>
    show p.val = if a = 1 then 0 else p.val
    split
    · have := p.isLt; omega
    · rfl

/-- A vector recast as `[a, 1]` is that column too. -/
theorem shapeCast_colVec (v : (⟨1, ![a]⟩ : Shape).Idx → EReal) (h : (⟨1, ![a]⟩ : Shape).ShapeCasts ⟨2, ![a, 1]⟩) :
    shapeCast ⟨2, ![a, 1]⟩ v h = colVec v := by
  funext i
  obtain ⟨p, u, rfl⟩ : ∃ (p : Fin a) (u : Fin 1), i = ix2 p u := ⟨i 0, i 1, eq_ix2 i⟩
  refine shapeCast_apply v h (ix2 p u) (ix1 p) ?_
  have hu : u.val = 0 := by have := u.isLt; omega
  simp only [Shape.rowMajor_val_two, Shape.rowMajor_val_one]
  show p.val = p.val * 1 + u.val
  omega

/-- A one-column array broadcast across `b` columns, read at `(p, q)`. -/
theorem bcast_cols_read (c : Mat a 1) (h : (⟨2, ![a, 1]⟩ : Shape).BroadcastsInDim ⟨2, ![a, b]⟩ ![0, 1]) (p : Fin a) (q : Fin b) :
    broadcastInDim ⟨2, ![a, b]⟩ ![0, 1] h c (ix2 p q) = c (ix2 p (0 : Fin 1)) := by
  refine broadcastInDim_apply ![0, 1] h c (ix2 p q) (ix2 p (0 : Fin 1)) fun ax => ?_
  match ax with
  | ⟨0, _⟩ =>
    show p.val = if a = 1 then 0 else p.val
    split
    · have := p.isLt; omega
    · rfl
  | ⟨1, _⟩ => rfl

/-- "add the vector broadcast to a row and down the rows, then the maximum with the broadcast zero word" is `biasRelu`. -/
theorem host_biasRelu (x : Mat a b) (v : (⟨1, ![b]⟩ : Shape).Idx → EReal)
    (h1 : (⟨1, ![b]⟩ : Shape).BroadcastsInDim ⟨2, ![1, b]⟩ ![1]) (h2 : (⟨2, ![1, b]⟩ : Shape).BroadcastsInDim ⟨2, ![a, b]⟩ ![0, 1])
    (h0 : (⟨0, ![]⟩ : Shape).BroadcastsInDim ⟨2, ![a, b]⟩ ![]) :
    maximumf (F := Ideal) (φ := .f32) (addf x (broadcastInDim ⟨2, ![a, b]⟩ ![0, 1] h2 (broadcastInDim ⟨2, ![1, b]⟩ ![1] h1 v)))
      (broadcastInDim ⟨2, ![a, b]⟩ ![] h0 (constant (F := Ideal) ⟨0, ![]⟩ .f32 0x00000000#32)) = biasRelu x (rowVec v) := by
  funext i
  obtain ⟨p, q, rfl⟩ : ∃ (p : Fin a) (q : Fin b), i = ix2 p q := ⟨i 0, i 1, eq_ix2 i⟩
  rw [maximumf_apply, addf_apply, bcast_rows_apply, bcast_rowVec, bcast_scalar_apply, constant_apply, biasRelu_apply,
    Ideal.ofBits_zero_f32]

/-- "add the vector broadcast to a row and down the rows" is `addRow`. -/
theorem host_addRow (x : Mat a b) (v : (⟨1, ![b]⟩ : Shape).Idx → EReal)
    (h1 : (⟨1, ![b]⟩ : Shape).BroadcastsInDim ⟨2, ![1, b]⟩ ![1]) (h2 : (⟨2, ![1, b]⟩ : Shape).BroadcastsInDim ⟨2, ![a, b]⟩ ![0, 1]) :
    addf (F := Ideal) (φ := .f32) x (broadcastInDim ⟨2, ![a, b]⟩ ![0, 1] h2 (broadcastInDim ⟨2, ![1, b]⟩ ![1] h1 v))
      = addRow x (rowVec v) := by
  funext i
  obtain ⟨p, q, rfl⟩ : ∃ (p : Fin a) (q : Fin b), i = ix2 p q := ⟨i 0, i 1, eq_ix2 i⟩
  rw [addf_apply, bcast_rows_apply, bcast_rowVec, addRow_apply]

/-- "divide by the vector's maximum with a broadcast word, broadcast to a column and across the columns" is `rowQuot`. -/
theorem host_rowQuot (w : BitVec 32) (s : Mat a b) (n : (⟨1, ![a]⟩ : Shape).Idx → EReal)
    (h0 : (⟨0, ![]⟩ : Shape).BroadcastsInDim ⟨1, ![a]⟩ ![]) (h1 : (⟨1, ![a]⟩ : Shape).BroadcastsInDim ⟨2, ![a, 1]⟩ ![0])
    (h2 : (⟨2, ![a, 1]⟩ : Shape).BroadcastsInDim ⟨2, ![a, b]⟩ ![0, 1]) :
    Host.divf (F := Ideal) (φ := .f32) s (broadcastInDim ⟨2, ![a, b]⟩ ![0, 1] h2 (broadcastInDim ⟨2, ![a, 1]⟩ ![0] h1
        (maximumf (F := Ideal) (φ := .f32) n (broadcastInDim ⟨1, ![a]⟩ ![] h0 (constant (F := Ideal) ⟨0, ![]⟩ .f32 w)))))
      = rowQuot (Ideal.ofBits .f32 w) s (colVec n) := by
  funext i
  obtain ⟨p, q, rfl⟩ : ∃ (p : Fin a) (q : Fin b), i = ix2 p q := ⟨i 0, i 1, eq_ix2 i⟩
  show Ideal.div (s (ix2 p q)) _ = _
  rw [bcast_cols_read, bcast_colVec, colVec_apply, maximumf_apply, bcast_scalar_apply, constant_apply, rowQuot_apply, colVec_apply]

end Cert.Gcn

end
-- ==== Proof.Net.lean ====
/-
  The network as one function of its thirteen arguments, on the extended reals.

  From the edge list `e` (two rows of 800000 node numbers): `src` and `dst` are its rows with the 50000 self-loops
  appended; a node's degree is the number of edges into it, `dis = 1 / sqrt deg` where the degree is positive and 0
  elsewhere, and an edge's weight is `norm = dis(src) · dis(dst)` (a negative node number wraps by 50000 before it is
  used as a row number).  One layer sends features `h` to
      max (agg (h · W) + b) 0,      agg y (p, ·) = ∑ over the edges into p of  y(src, ·) · norm,
  the sum being the host's scatter-add of the gathered, scaled rows.  Three layers, then the rows are summed by graph
  (`pool`), the graphs' node numbers counted (`counts`), and the head applied: mean by graph, a dense layer clamped at
  zero, a dense layer.  The gather and the scatter-add are the host's own operations and are never opened here.
-/
import proofs.«142709_j22333829939473_1_alg».proof.Proof.Gen.ReferenceIdeal
import proofs.«142709_j22333829939473_1_alg».proof.Proof.LibHostStages

noncomputable section

namespace Cert.Net

open Idealize.ShloMosaic Idealize.ShloMosaic.ValueIdx Cert.ReferenceIdeal Cert.ReferenceIdeal.Gen Cert.LayerLaws Cert.Gcn

/-- An edge list: two rows of node numbers. -/
abbrev Edges := (⟨S2x800000, .i32⟩ : BufTy).Contents (Elt Ideal)
/-- Each node's graph number. -/
abbrev Batch := (⟨S50000, .i32⟩ : BufTy).Contents (Elt Ideal)
/-- A vector of `n` extended reals. -/
abbrev Vect (n : ℕ) := (⟨1, ![n]⟩ : Shape).Idx → EReal

/-! ## The edges -/

/-- The senders: row 0 of the edge list, then every node once (the self-loops). -/
def src (e : Edges) : (⟨S850000, .i32⟩ : BufTy).Contents (Elt Ideal) :=
  concatenate S850000 0 [⟨S800000, shapeCast _ (extractStridedSlice S1x800000 ![0, 0] e slices_S2x800000_S1x800000_0_0) shapeCasts_S1x800000_S800000⟩,
    ⟨S50000, iotaInDim S50000 32 0⟩] concatenates_S800000_S50000_S850000_d0

/-- The receivers: row 1 of the edge list, then every node once. -/
def dst (e : Edges) : (⟨S850000, .i32⟩ : BufTy).Contents (Elt Ideal) :=
  concatenate S850000 0 [⟨S800000, shapeCast _ (extractStridedSlice S1x800000 ![1, 0] e slices_S2x800000_S1x800000_1_0) shapeCasts_S1x800000_S800000⟩,
    ⟨S50000, iotaInDim S50000 32 0⟩] concatenates_S800000_S50000_S850000_d0

/-- Node numbers as row numbers: a negative one wraps by 50000; then one index per row of an `[850000, 1]` array. -/
def wrap (ix : (⟨S850000, .i32⟩ : BufTy).Contents (Elt Ideal)) : (⟨S850000x1, .i32⟩ : BufTy).Contents (Elt Ideal) :=
  broadcastInDim S850000x1 ![0] bcast_S850000_S850000x1_0
    (select (cmpi .slt ix (broadcastInDim S850000 ![] bcast_S_S850000 (constantI S_ 32 0#32)))
      (addi ix (broadcastInDim S850000 ![] bcast_S_S850000 (constantI S_ 32 50000#32))) ix)

/-- A node's degree: the edges into it, counted by a scatter-add of ones. -/
def deg (e : Edges) : Vect 50000 :=
  Host.scatterAdd (F := Ideal) scatter_S50000_S850000x1_S850000_n_0_0_1
    (broadcastInDim S50000 ![] bcast_S_S50000 (constant S_ .f32 0x00000000#32))
    (broadcastInDim S850000x1 ![0] bcast_S850000_S850000x1_0 (dst e))
    (broadcastInDim S850000 ![] bcast_S_S850000 (constant S_ .f32 0x3F800000#32))

/-- `1 / sqrt deg` where the degree is positive, the zero word elsewhere. -/
def dis (e : Edges) : Vect 50000 :=
  select (cmpf (F := Ideal) .ogt (deg e) (broadcastInDim S50000 ![] bcast_S_S50000 (constant S_ .f32 0x00000000#32)))
    (Host.divf (F := Ideal) (broadcastInDim S50000 ![] bcast_S_S50000 (constant S_ .f32 0x3F800000#32)) (Host.sqrt (deg e)))
    (broadcastInDim S50000 ![] bcast_S_S50000 (constant (F := Ideal) S_ .f32 0x00000000#32))

/-- An edge's weight: the product of its two ends' `dis`. -/
def norm (e : Edges) : Vect 850000 :=
  mulf (F := Ideal) (φ := .f32) (Host.gather gather_S50000_S850000x1_S850000_n_0_n_n_0_1_1 (dis e) (wrap (src e)))
    (Host.gather gather_S50000_S850000x1_S850000_n_0_n_n_0_1_1 (dis e) (wrap (dst e)))

/-! ## Aggregation, pooling, counting -/

/-- Each node's sum, over the edges `s → d` into it, of the sender's row scaled by the edge's weight `nrm`. -/
def aggWith (s d : (⟨S850000, .i32⟩ : BufTy).Contents (Elt Ideal)) (nrm : Vect 850000) (y : Mat 50000 256) : Mat 50000 256 :=
  Host.scatterAdd (F := Ideal) scatter_S50000x256_S850000x1_S850000x256_1_0_0_1
    (broadcastInDim S50000x256 ![] bcast_S_S50000x256 (constant S_ .f32 0x00000000#32))
    (broadcastInDim S850000x1 ![0] bcast_S850000_S850000x1_0 d)
    (mulf (F := Ideal) (φ := .f32) (Host.gather gather_S50000x256_S850000x1_S850000x256_1_0_n_n_0_1_1256 y (wrap s))
      (broadcastInDim S850000x256 ![0, 1] bcast_S850000x1_S850000x256_0_1
        (broadcastInDim S850000x1 ![0] bcast_S850000_S850000x1_0 nrm)))

/-- The aggregation over the network's own edges. -/
def agg (e : Edges) (y : Mat 50000 256) : Mat 50000 256 := aggWith (src e) (dst e) (norm e) y

/-- The normalisation from given per-node factors and edge ends. -/
def normWith (ds : Vect 50000) (s d : (⟨S850000, .i32⟩ : BufTy).Contents (Elt Ideal)) : Vect 850000 :=
  mulf (F := Ideal) (φ := .f32) (Host.gather gather_S50000_S850000x1_S850000_n_0_n_n_0_1_1 ds (wrap s))
    (Host.gather gather_S50000_S850000x1_S850000_n_0_n_n_0_1_1 ds (wrap d))

theorem norm_eq (e : Edges) : norm e = normWith (dis e) (src e) (dst e) := rfl

/-- The rows summed by graph. -/
def pool (g : Batch) (h : Mat 50000 256) : Mat 2048 256 :=
  Host.scatterAdd (F := Ideal) scatter_S2048x256_S50000x1_S50000x256_1_0_0_1
    (broadcastInDim S2048x256 ![] bcast_S_S2048x256 (constant S_ .f32 0x00000000#32))
    (broadcastInDim S50000x1 ![0] bcast_S50000_S50000x1_0 g) h

/-- Each graph's number of nodes. -/
def counts (g : Batch) : Vect 2048 :=
  Host.scatterAdd (F := Ideal) scatter_S2048_S50000x1_S50000_n_0_0_1
    (broadcastInDim S2048 ![] bcast_S_S2048 (constant S_ .f32 0x00000000#32))
    (broadcastInDim S50000x1 ![0] bcast_S50000_S50000x1_0 g)
    (broadcastInDim S50000 ![] bcast_S_S50000 (constant S_ .f32 0x3F800000#32))

/-! ## The layers and the network -/

variable {k : ℕ}

/-- One layer: the dense map, the aggregation, the bias, the clamp at zero. -/
def layer (e : Edges) (h : Mat 50000 k) (w : Mat k 256) (b : Vect 256) : Mat 50000 256 :=
  biasRelu (agg e (mm h w)) (rowVec b)

/-- The network: three layers, the pooling, the head. -/
def net (x : Mat 50000 64) (e : Edges) (g : Batch) (w1 : Mat 64 256) (b1 : Vect 256) (w2 : Mat 256 256) (b2 : Vect 256)
    (w3 : Mat 256 256) (b3 : Vect 256) (wl : Mat 256 128) (bl : Vect 128) (wo : Mat 128 1) (bo : Vect 1) : Mat 2048 1 :=
  pooledHead (Ideal.ofBits .f32 0x3F800000#32) (pool g (layer e (layer e (layer e x w1 b1) w2 b2) w3 b3)) (colVec (counts g))
    wl (rowVec bl) wo (rowVec bo)

end Cert.Net

end
-- ==== Proof.RefNet.lean ====
/-
  The reference's result is the network.

  The reference's run ends with its result buffer at one composed term of the arguments.  Read with the pieces of
  `Cert.Net` named, that term is: three host layers — `max (agg (h · W) + b) 0` with the product the host's `dot_general`,
  the bias a vector broadcast to a row and down the rows, the clamp a maximum with a broadcast zero — then the pooling,
  and the host's head: the sums divided by the counts clamped below at one (a vector broadcast to a column and across),
  a dense layer clamped at zero, a dense layer.  Each host layer is `Cert.Net.layer` and the host's head is the pooled
  head, stage by stage; the gathers and scatter-adds are the same operations on both sides and stay closed.
-/
import proofs.«142709_j22333829939473_1_alg».proof.Proof.ReferenceRun
import proofs.«142709_j22333829939473_1_alg».proof.Proof.Net

noncomputable section

namespace Cert.ReferenceIdeal.Meets

open Idealize.ShloMosaic Idealize.ShloMosaic.TcCoe Idealize.ShloMosaic.ValueIdx Idealize.SL.Sem
open Cert.ReferenceIdeal Cert.ReferenceIdeal.Gen Cert.LayerLaws Cert.Gcn Cert.Net

/-! ## The reference's four contraction records -/

theorem inner_features : Inner dot_S50000x64_S64x256_S50000x256_1_0_0_1_n_n where
  rank := rfl
  size := rfl
  l0 := fun i q => by
    unfold DotDims.lhsIdx
    rw [dif_neg (show ¬(0 : Fin S50000x64.rank) ∈ dot_S50000x64_S64x256_S50000x256_1_0_0_1_n_n.lhsBatch by decide),
      dif_pos (show (0 : Fin S50000x64.rank) ∈ dot_S50000x64_S64x256_S50000x256_1_0_0_1_n_n.lhsNonContracting by decide)]
    rfl
  l1 := fun i q => dot_S50000x64_S64x256_S50000x256_1_0_0_1_n_n.lhsIdx_val_of_single rfl i q
  r0 := fun i q => dot_S50000x64_S64x256_S50000x256_1_0_0_1_n_n.rhsIdx_val_of_single rfl i q
  r1 := fun i q => by
    unfold DotDims.rhsIdx
    rw [dif_neg (show ¬(1 : Fin S64x256.rank) ∈ dot_S50000x64_S64x256_S50000x256_1_0_0_1_n_n.rhsBatch by decide),
      dif_pos (show (1 : Fin S64x256.rank) ∈ dot_S50000x64_S64x256_S50000x256_1_0_0_1_n_n.rhsNonContracting by decide)]
    rfl

theorem inner_hidden : Inner dot_S50000x256_S256x256_S50000x256_1_0_0_1_n_n where
  rank := rfl
  size := rfl
  l0 := fun i q => by
    unfold DotDims.lhsIdx
    rw [dif_neg (show ¬(0 : Fin S50000x256.rank) ∈ dot_S50000x256_S256x256_S50000x256_1_0_0_1_n_n.lhsBatch by decide),
      dif_pos (show (0 : Fin S50000x256.rank) ∈ dot_S50000x256_S256x256_S50000x256_1_0_0_1_n_n.lhsNonContracting by decide)]
    rfl
  l1 := fun i q => dot_S50000x256_S256x256_S50000x256_1_0_0_1_n_n.lhsIdx_val_of_single rfl i q
  r0 := fun i q => dot_S50000x256_S256x256_S50000x256_1_0_0_1_n_n.rhsIdx_val_of_single rfl i q
  r1 := fun i q => by
    unfold DotDims.rhsIdx
    rw [dif_neg (show ¬(1 : Fin S256x256.rank) ∈ dot_S50000x256_S256x256_S50000x256_1_0_0_1_n_n.rhsBatch by decide),
      dif_pos (show (1 : Fin S256x256.rank) ∈ dot_S50000x256_S256x256_S50000x256_1_0_0_1_n_n.rhsNonContracting by decide)]
    rfl

theorem inner_pooled : Inner dot_S2048x256_S256x128_S2048x128_1_0_0_1_n_n where
  rank := rfl
  size := rfl
  l0 := fun i q => by
    unfold DotDims.lhsIdx
    rw [dif_neg (show ¬(0 : Fin S2048x256.rank) ∈ dot_S2048x256_S256x128_S2048x128_1_0_0_1_n_n.lhsBatch by decide),
      dif_pos (show (0 : Fin S2048x256.rank) ∈ dot_S2048x256_S256x128_S2048x128_1_0_0_1_n_n.lhsNonContracting by decide)]
    rfl
  l1 := fun i q => dot_S2048x256_S256x128_S2048x128_1_0_0_1_n_n.lhsIdx_val_of_single rfl i q
  r0 := fun i q => dot_S2048x256_S256x128_S2048x128_1_0_0_1_n_n.rhsIdx_val_of_single rfl i q
  r1 := fun i q => by
    unfold DotDims.rhsIdx
    rw [dif_neg (show ¬(1 : Fin S256x128.rank) ∈ dot_S2048x256_S256x128_S2048x128_1_0_0_1_n_n.rhsBatch by decide),
      dif_pos (show (1 : Fin S256x128.rank) ∈ dot_S2048x256_S256x128_S2048x128_1_0_0_1_n_n.rhsNonContracting by decide)]
    rfl

theorem inner_out : Inner dot_S2048x128_S128x1_S2048x1_1_0_0_1_n_n where
  rank := rfl
  size := rfl
  l0 := fun i q => by
    unfold DotDims.lhsIdx
    rw [dif_neg (show ¬(0 : Fin S2048x128.rank) ∈ dot_S2048x128_S128x1_S2048x1_1_0_0_1_n_n.lhsBatch by decide),
      dif_pos (show (0 : Fin S2048x128.rank) ∈ dot_S2048x128_S128x1_S2048x1_1_0_0_1_n_n.lhsNonContracting by decide)]
    rfl
  l1 := fun i q => dot_S2048x128_S128x1_S2048x1_1_0_0_1_n_n.lhsIdx_val_of_single rfl i q
  r0 := fun i q => dot_S2048x128_S128x1_S2048x1_1_0_0_1_n_n.rhsIdx_val_of_single rfl i q
  r1 := fun i q => by
    unfold DotDims.rhsIdx
    rw [dif_neg (show ¬(1 : Fin S128x1.rank) ∈ dot_S2048x128_S128x1_S2048x1_1_0_0_1_n_n.rhsBatch by decide),
      dif_pos (show (1 : Fin S128x1.rank) ∈ dot_S2048x128_S128x1_S2048x1_1_0_0_1_n_n.rhsNonContracting by decide)]
    rfl

/-- The host's product is the matrix product. -/
theorem host_product {a k b : ℕ} {D : DotDims ⟨2, ![a, k]⟩ ⟨2, ![k, b]⟩ ⟨2, ![a, b]⟩} (hD : Inner D) (x : Mat a k) (w : Mat k b) :
    Host.dotGeneral (F := Ideal) (φ₁ := .f32) (φ₂ := .f32) D none x w = mm x w := by
  simp only [Host.dotGeneral]
  exact dotGeneral_eq_mm hD _ x w

/-! ## A host layer and the host's head -/

/-- A layer as the host writes it. -/
def hostLayer {k : ℕ} (D : DotDims ⟨2, ![50000, k]⟩ ⟨2, ![k, 256]⟩ ⟨2, ![50000, 256]⟩) (e : Edges) (h : Mat 50000 k) (w : Mat k 256)
    (b : Vect 256) : Mat 50000 256 :=
  maximumf (F := Ideal)
    (addf (agg e (Host.dotGeneral (F := Ideal) (φ₁ := .f32) (φ₂ := .f32) D none h w))
      (broadcastInDim S50000x256 ![0, 1] bcast_S1x256_S50000x256_0_1 (broadcastInDim S1x256 ![1] bcast_S256_S1x256_1 b)))
    (broadcastInDim S50000x256 ![] bcast_S_S50000x256 (constant (F := Ideal) S_ .f32 0x00000000#32))

theorem hostLayer_eq {k : ℕ} {D : DotDims ⟨2, ![50000, k]⟩ ⟨2, ![k, 256]⟩ ⟨2, ![50000, 256]⟩} (hD : Inner D) (e : Edges)
    (h : Mat 50000 k) (w : Mat k 256) (b : Vect 256) : hostLayer D e h w b = layer e h w b := by
  unfold hostLayer layer
  rw [host_product hD]
  exact host_biasRelu _ b bcast_S256_S1x256_1 bcast_S1x256_S50000x256_0_1 bcast_S_S50000x256

/-- The head as the host writes it. -/
def hostHead (s : Mat 2048 256) (n : Vect 2048) (wl : Mat 256 128) (bl : Vect 128) (wo : Mat 128 1) (bo : Vect 1) : Mat 2048 1 :=
  addf (F := Ideal)
    (Host.dotGeneral (F := Ideal) (φ₁ := .f32) (φ₂ := .f32) dot_S2048x128_S128x1_S2048x1_1_0_0_1_n_n none
      (maximumf (F := Ideal)
        (addf
          (Host.dotGeneral (F := Ideal) (φ₁ := .f32) (φ₂ := .f32) dot_S2048x256_S256x128_S2048x128_1_0_0_1_n_n none
            (Host.divf (F := Ideal) s
              (broadcastInDim S2048x256 ![0, 1] bcast_S2048x1_S2048x256_0_1
                (broadcastInDim S2048x1 ![0] bcast_S2048_S2048x1_0
                  (maximumf (F := Ideal) n (broadcastInDim S2048 ![] bcast_S_S2048 (constant (F := Ideal) S_ .f32 0x3F800000#32))))))
            wl)
          (broadcastInDim S2048x128 ![0, 1] bcast_S1x128_S2048x128_0_1 (broadcastInDim S1x128 ![1] bcast_S128_S1x128_1 bl)))
        (broadcastInDim S2048x128 ![] bcast_S_S2048x128 (constant (F := Ideal) S_ .f32 0x00000000#32)))
      wo)
    (broadcastInDim S2048x1 ![0, 1] bcast_S1x1_S2048x1_0_1 (broadcastInDim S1x1 ![1] bcast_S1_S1x1_1 bo))

theorem hostHead_eq (s : Mat 2048 256) (n : Vect 2048) (wl : Mat 256 128) (bl : Vect 128) (wo : Mat 128 1) (bo : Vect 1) :
    hostHead s n wl bl wo bo
      = pooledHead (Ideal.ofBits .f32 0x3F800000#32) s (colVec n) wl (rowVec bl) wo (rowVec bo) := by
  unfold hostHead pooledHead
  rw [host_rowQuot 0x3F800000#32 s n bcast_S_S2048 bcast_S2048_S2048x1_0 bcast_S2048x1_S2048x256_0_1,
    host_product inner_pooled,
    host_biasRelu _ bl bcast_S128_S1x128_1 bcast_S1x128_S2048x128_0_1 bcast_S_S2048x128,
    host_product inner_out]
  exact host_addRow _ bo bcast_S1_S1x1_1 bcast_S1x1_S2048x1_0_1

/-! ## The reference's result -/

set_option maxRecDepth 200000 in
/-- The run's composed term, read as three host layers, the pooling and the host's head. -/
theorem result_as_host (m : (ℓ : Loc nD τ sig) → Buf (Elt Ideal) ℓ) (c : Dev nD) :
    Cert.ReferenceIdeal.ValueP.res_main_v106 (F := Ideal) m c
      = hostHead
          (pool (m ((c.tc : Thread nD τ).loc main_arg2))
            (hostLayer dot_S50000x256_S256x256_S50000x256_1_0_0_1_n_n (m ((c.tc : Thread nD τ).loc main_arg1))
              (hostLayer dot_S50000x256_S256x256_S50000x256_1_0_0_1_n_n (m ((c.tc : Thread nD τ).loc main_arg1))
                (hostLayer dot_S50000x64_S64x256_S50000x256_1_0_0_1_n_n (m ((c.tc : Thread nD τ).loc main_arg1))
                  (m ((c.tc : Thread nD τ).loc main_arg0)) (m ((c.tc : Thread nD τ).loc main_arg3)) (m ((c.tc : Thread nD τ).loc main_arg4)))
                (m ((c.tc : Thread nD τ).loc main_arg5)) (m ((c.tc : Thread nD τ).loc main_arg6)))
              (m ((c.tc : Thread nD τ).loc main_arg7)) (m ((c.tc : Thread nD τ).loc main_arg8))))
          (counts (m ((c.tc : Thread nD τ).loc main_arg2)))
          (m ((c.tc : Thread nD τ).loc main_arg9)) (m ((c.tc : Thread nD τ).loc main_arg10))
          (m ((c.tc : Thread nD τ).loc main_arg11)) (m ((c.tc : Thread nD τ).loc main_arg12)) := by
  unfold Cert.ReferenceIdeal.ValueP.res_main_v106
  rfl

/-- The reference's result is the network of its arguments. -/
theorem result_eq (m : (ℓ : Loc nD τ sig) → Buf (Elt Ideal) ℓ) (c : Dev nD) :
    Cert.ReferenceIdeal.ValueP.res_main_v106 (F := Ideal) m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) := by
  rw [result_as_host, hostLayer_eq inner_features, hostLayer_eq inner_hidden, hostLayer_eq inner_hidden, hostHead_eq]
  rfl

end Cert.ReferenceIdeal.Meets

end
-- ==== Proof.KernelRun.lean ====
/-
  The idealized kernel's run with its result named.

  @main is fourteen segments: host lines, then each of the seven kernel launches, with host lines between them.  Every
  weakly fair execution runs them in order, and at the end each buffer that outlives a launch holds what the last
  segment leaves in it: the fold, from the launch memory, of every stretch of host lines and of every launch's
  write-backs (`Gen.W14`, in the generated frame module).  Read at the result buffer this is the kernel's value; read at
  an argument array it is the launch memory, since no line and no launch writes an argument.
-/
import proofs.«142709_j22333829939473_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a core's memory holds at the end: every buffer that outlives a launch at the last boundary's contents. -/
def EndsAt (c : Dev nD) (s : MemSt nD τ sig (Elt F)) : Prop :=
  ∀ b ∈ Pipeline.ucRefs τ sig, s.mem (((c : Thread nD τ)).1, b) = W14 m ρ c b

set_option backward.isDefEq.respectTransparency.types false in
/-- Every weakly fair execution of @main terminates, nothing faulting, and on every core every such buffer ends at
    the last boundary's contents: the first segment is entered from the launch memory with the generator register
    at its launch state and nothing owed, each later segment from what the one before it leaves, and the last
    leaves every such buffer held at `W14`, which a final memory must then agree with. -/
theorem run_all : θ_run defs (onTc (τ := τ) (main (F := F))) ⟨m, fun _ => 0, ρ⟩ (fun r => ∀ c : Dev nD, EndsAt m ρ c r.2) :=
  Pipeline.θ_run_regions_kit (pcfgs (F := F)) adm (pdats m ρ) () cellOf_inj emb₁ defs₀ 𝒱₀ L lv m ρ main (segs m ρ)
    -- @main is the run of its segments
    (fun c Q => by rw [main_run m ρ c])
    -- no launch appears twice among them
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    -- the launch element is the pipelines' own, and no core is dealt anything beside it
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by
          rw [BI.bigSep_emp_const])
        iempintro)
    (T₀ := fun c => iprop(StableHlo.held (c : Thread nD τ) (Pipeline.ucRefs τ sig) (W0 m ρ c) ∗ R c)) (Tₙ := Tₙ m ρ)
    -- each segment is entered from the contents the one before it leaves
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl⟩)
    -- the first thread state: the launch memory's buffers, the generator register, nothing owed
    (hinit := by
      refine Pipeline.initEach L lv fun c => ?_
      rw [show unscopedBufs c (fun b => m ((c : Thread nD τ).loc b))
          = StableHlo.held (c : Thread nD τ) (Pipeline.ucRefs τ sig) (W0 m ρ c) from Pipeline.unscopedBufs_held c (W0 m ρ c)]
      iintro ⟨⟨Hbufs, -, Howes, -, Hreg, -⟩, -⟩
      imodintro
      isplitl [Hbufs]
      · iexact Hbufs
      isplitl [Hreg]
      · iexists _; iexact Hreg
      · iexists ∅; iexact Howes)
    (QY := fun c s => EndsAt m ρ c s)
    -- the last thread state holds every such buffer at `W14`; a held buffer's contents are the memory's
    (hfin := fun c s' => by
      iintro ⟨⟨Hheld, -⟩, HSI⟩
      unfold StableHlo.held
      imodintro
      iapply (pointsTo_read_all (Pipeline.ucRefs τ sig) (fun b => (((c : Thread nD τ)).1, b)) (W14 m ρ c) s')
      isplitl [Hheld] <;> iassumption)
    (hQ := fun _ h => h)

/-- The run read at the result buffer and at the thirteen argument arrays. -/
theorem run : θ_run defs (onTc (τ := τ) (main (F := F))) ⟨m, fun _ => 0, ρ⟩ (fun r => ∀ c : Dev nD,
      r.2.mem ((c.tc : Thread nD τ).loc main_v90) = W14 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v90 (by decide)),
     (h c _ (mem_uc main_arg0 (by decide))).trans (W14_main_arg0 m ρ c),
     (h c _ (mem_uc main_arg1 (by decide))).trans (W14_main_arg1 m ρ c),
     (h c _ (mem_uc main_arg2 (by decide))).trans (W14_main_arg2 m ρ c),
     (h c _ (mem_uc main_arg3 (by decide))).trans (W14_main_arg3 m ρ c),
     (h c _ (mem_uc main_arg4 (by decide))).trans (W14_main_arg4 m ρ c),
     (h c _ (mem_uc main_arg5 (by decide))).trans (W14_main_arg5 m ρ c),
     (h c _ (mem_uc main_arg6 (by decide))).trans (W14_main_arg6 m ρ c),
     (h c _ (mem_uc main_arg7 (by decide))).trans (W14_main_arg7 m ρ c),
     (h c _ (mem_uc main_arg8 (by decide))).trans (W14_main_arg8 m ρ c),
     (h c _ (mem_uc main_arg9 (by decide))).trans (W14_main_arg9 m ρ c),
     (h c _ (mem_uc main_arg10 (by decide))).trans (W14_main_arg10 m ρ c),
     (h c _ (mem_uc main_arg11 (by decide))).trans (W14_main_arg11 m ρ c),
     (h c _ (mem_uc main_arg12 (by decide))).trans (W14_main_arg12 m ρ c)⟩)
    (run_all m ρ)

end Cert.KernelIdeal.Named

end
-- ==== Proof.KGlue.lean ====
/-
  The kernel program's host lines between its launches, each stretch read as a function of the buffers it starts
  from.  The stretch before the first launch builds the edge buffers (`src`, `dst`, the edge weights); the stretch
  after each dense launch gathers the launch's result by sender, scales it by the edge weight and scatter-adds it by
  receiver (`Cert.Net.aggWith`), and recasts that layer's bias as one row; the last stretch sums the rows by graph,
  counts each graph's nodes, and recasts the counts as a column and the head's two biases as rows.  A stretch leaves
  every buffer it does not write as it found it.
-/
import proofs.«142709_j22333829939473_1_alg».proof.Proof.Gen.KernelIdeal.Launch
import proofs.«142709_j22333829939473_1_alg».proof.Proof.Net
import Idealize.ShloMosaic.Lib.StableHlo.Run

set_option maxRecDepth 16384

noncomputable section

namespace Cert.KernelIdeal.Glue

open Idealize.ShloMosaic Idealize.ShloMosaic.TcCoe Idealize.ShloMosaic.ValueIdx Idealize.SL.Sem Idealize.ShloMosaic.StableHlo
open Cert.KernelIdeal Cert.KernelIdeal.Gen Cert.LayerLaws Cert.Gcn

/-- A stretch keeps a buffer none of its lines writes. -/
macro "host_keeps" ops:ident : tactic => `(tactic|
  (refine StableHlo.after_of_forall_not_mem _ _ (List.forall_iff_forall_mem.mp ?_)
   simp only [$ops:ident, List.Forall, StableHlo.nullary_writes, StableHlo.unary_writes, StableHlo.binary_writes,
     StableHlo.ternary_writes, StableHlo.reshape_writes, Finset.mem_singleton]
   repeat' apply And.intro
   all_goals exact StableHlo.devRef_ne_of_ne (by decide)))

variable (W : Valuation τ sig (Elt Ideal))

/-! ## Before the first launch -/

theorem first_src : after (hostOps0 (F := Ideal)) W (Proc.devRef .tc main_v3) = Net.src (W (Proc.devRef .tc main_arg1)) := by
  after_results <;> rfl

theorem first_dst : after (hostOps0 (F := Ideal)) W (Proc.devRef .tc main_v6) = Net.dst (W (Proc.devRef .tc main_arg1)) := by
  after_results <;> rfl

/-- The factor of the nodes of positive degree, its mask and the zero it falls back to. -/
theorem first_positive : after (hostOps0 (F := Ideal)) W (Proc.devRef .tc main_v12)
    = cmpf (F := Ideal) .ogt (Net.deg (W (Proc.devRef .tc main_arg1))) (broadcastInDim S50000 ![] bcast_S_S50000 (constant S_ .f32 0x00000000#32)) := by
  after_results <;> rfl

theorem first_recip : after (hostOps0 (F := Ideal)) W (Proc.devRef .tc main_v15)
    = Host.divf (F := Ideal) (broadcastInDim S50000 ![] bcast_S_S50000 (constant S_ .f32 0x3F800000#32)) (Host.sqrt (Net.deg (W (Proc.devRef .tc main_arg1)))) := by
  after_results <;> rfl

theorem first_zero : after (hostOps0 (F := Ideal)) W (Proc.devRef .tc main_cst_3) = constant (F := Ideal) S_ .f32 0x00000000#32 := by
  after_results <;> rfl

/-- The `where`: the factor where the mask holds, the broadcast zero elsewhere. -/
theorem where_select : after (hostOps0_1 (F := Ideal)) W (Proc.devRef .tc main_v16)
    = select (W (Proc.devRef .tc main_v12)) (W (Proc.devRef .tc main_v15)) (broadcastInDim S50000 ![] bcast_S_S50000 (W (Proc.devRef .tc main_cst_3))) := by
  after_results <;> rfl

set_option maxHeartbeats 8000000 in
/-- The edge weights from the per-node factors and the edge ends. -/
theorem first_norm : after (hostOps0_2 (F := Ideal)) W (Proc.devRef .tc main_v31)
    = Net.normWith (W (Proc.devRef .tc main_v16)) (W (Proc.devRef .tc main_v3)) (W (Proc.devRef .tc main_v6)) := by
  after_results <;> rfl

/-! ## After a dense launch -/

set_option maxHeartbeats 8000000 in
theorem agg1 : after (hostOps1 (F := Ideal)) W (Proc.devRef .tc main_v45)
    = Net.aggWith (W (Proc.devRef .tc main_v3)) (W (Proc.devRef .tc main_v6)) (W (Proc.devRef .tc main_v31)) (W (Proc.devRef .tc main_v32)) := by
  after_results <;> rfl

theorem bias1 : after (hostOps1 (F := Ideal)) W (Proc.devRef .tc main_v46) = shapeCast S1x256 (W (Proc.devRef .tc main_arg4)) shapeCasts_S256_S1x256 := by
  after_results <;> rfl

set_option maxHeartbeats 8000000 in
theorem agg3 : after (hostOps3 (F := Ideal)) W (Proc.devRef .tc main_v61)
    = Net.aggWith (W (Proc.devRef .tc main_v3)) (W (Proc.devRef .tc main_v6)) (W (Proc.devRef .tc main_v31)) (W (Proc.devRef .tc main_v48)) := by
  after_results <;> rfl

theorem bias3 : after (hostOps3 (F := Ideal)) W (Proc.devRef .tc main_v62) = shapeCast S1x256 (W (Proc.devRef .tc main_arg6)) shapeCasts_S256_S1x256 := by
  after_results <;> rfl

set_option maxHeartbeats 8000000 in
theorem agg5 : after (hostOps5 (F := Ideal)) W (Proc.devRef .tc main_v77)
    = Net.aggWith (W (Proc.devRef .tc main_v3)) (W (Proc.devRef .tc main_v6)) (W (Proc.devRef .tc main_v31)) (W (Proc.devRef .tc main_v64)) := by
  after_results <;> rfl

theorem bias5 : after (hostOps5 (F := Ideal)) W (Proc.devRef .tc main_v78) = shapeCast S1x256 (W (Proc.devRef .tc main_arg8)) shapeCasts_S256_S1x256 := by
  after_results <;> rfl

/-! ## Before the head -/

theorem pooled : after (hostOps6 (F := Ideal)) W (Proc.devRef .tc main_v82) = Net.pool (W (Proc.devRef .tc main_arg2)) (W (Proc.devRef .tc main_v79)) := by
  after_results <;> rfl

theorem counted : after (hostOps6 (F := Ideal)) W (Proc.devRef .tc main_v87)
    = shapeCast S2048x1 (Net.counts (W (Proc.devRef .tc main_arg2))) shapeCasts_S2048_S2048x1 := by
  after_results <;> rfl

theorem head_bias1 : after (hostOps6 (F := Ideal)) W (Proc.devRef .tc main_v88) = shapeCast S1x128 (W (Proc.devRef .tc main_arg10)) shapeCasts_S128_S1x128 := by
  after_results <;> rfl

theorem head_bias2 : after (hostOps6 (F := Ideal)) W (Proc.devRef .tc main_v89) = shapeCast S1x1 (W (Proc.devRef .tc main_arg12)) shapeCasts_S1_S1x1 := by
  after_results <;> rfl

end Cert.KernelIdeal.Glue

end
-- ==== Proof.Stages.lean ====
/-
  The four kernel bodies of the network, each as a function of the blocks it loads, on the extended reals.

  A dense body takes a tile of rows `x` and a whole weight matrix `w` and stores their product: a change of float
  format is the identity on the extended reals and the accumulator starts at zero, so the stored tile is `mm x w`.
  A bias body takes a tile `x` and a one-row array `r` and stores `biasRelu x r`, the entries `max (x(p,q) + r(0,q)) 0`.
  The head takes per-graph sums `s`, a column of node counts `c`, two weight matrices and two one-row biases, and
  stores `((max ((s / max c 1) · Wl + bl) 0) · Wo) + bo`, the quotient row by row and the products matrix products.
-/
import proofs.«142709_j22333829939473_1_alg».proof.Proof.Gen.KernelIdeal.Skeleton
import proofs.«142709_j22333829939473_1_alg».proof.Proof.LibVectorStages

noncomputable section

open scoped BigOperators

namespace Cert.KernelIdeal.Stage

open Idealize.ShloMosaic Idealize.ShloMosaic.ValueIdx Cert.KernelIdeal Cert.KernelIdeal.Gen Cert.LayerLaws Cert.Gcn

/-! ## The four contraction records: each contracts the left operand's columns with the right operand's rows -/

theorem inner_features : Inner dot_S5000x64_S64x256_S5000x256_1_0_0_1_n_n where
  rank := rfl
  size := rfl
  l0 := fun i q => by
    unfold DotDims.lhsIdx
    rw [dif_neg (show ¬(0 : Fin S5000x64.rank) ∈ dot_S5000x64_S64x256_S5000x256_1_0_0_1_n_n.lhsBatch by decide),
      dif_pos (show (0 : Fin S5000x64.rank) ∈ dot_S5000x64_S64x256_S5000x256_1_0_0_1_n_n.lhsNonContracting by decide)]
    rfl
  l1 := fun i q => dot_S5000x64_S64x256_S5000x256_1_0_0_1_n_n.lhsIdx_val_of_single rfl i q
  r0 := fun i q => dot_S5000x64_S64x256_S5000x256_1_0_0_1_n_n.rhsIdx_val_of_single rfl i q
  r1 := fun i q => by
    unfold DotDims.rhsIdx
    rw [dif_neg (show ¬(1 : Fin S64x256.rank) ∈ dot_S5000x64_S64x256_S5000x256_1_0_0_1_n_n.rhsBatch by decide),
      dif_pos (show (1 : Fin S64x256.rank) ∈ dot_S5000x64_S64x256_S5000x256_1_0_0_1_n_n.rhsNonContracting by decide)]
    rfl

theorem inner_hidden : Inner dot_S5000x256_S256x256_S5000x256_1_0_0_1_n_n where
  rank := rfl
  size := rfl
  l0 := fun i q => by
    unfold DotDims.lhsIdx
    rw [dif_neg (show ¬(0 : Fin S5000x256.rank) ∈ dot_S5000x256_S256x256_S5000x256_1_0_0_1_n_n.lhsBatch by decide),
      dif_pos (show (0 : Fin S5000x256.rank) ∈ dot_S5000x256_S256x256_S5000x256_1_0_0_1_n_n.lhsNonContracting by decide)]
    rfl
  l1 := fun i q => dot_S5000x256_S256x256_S5000x256_1_0_0_1_n_n.lhsIdx_val_of_single rfl i q
  r0 := fun i q => dot_S5000x256_S256x256_S5000x256_1_0_0_1_n_n.rhsIdx_val_of_single rfl i q
  r1 := fun i q => by
    unfold DotDims.rhsIdx
    rw [dif_neg (show ¬(1 : Fin S256x256.rank) ∈ dot_S5000x256_S256x256_S5000x256_1_0_0_1_n_n.rhsBatch by decide),
      dif_pos (show (1 : Fin S256x256.rank) ∈ dot_S5000x256_S256x256_S5000x256_1_0_0_1_n_n.rhsNonContracting by decide)]
    rfl

theorem inner_pooled : Inner dot_S2048x256_S256x128_S2048x128_1_0_0_1_n_n where
  rank := rfl
  size := rfl
  l0 := fun i q => by
    unfold DotDims.lhsIdx
    rw [dif_neg (show ¬(0 : Fin S2048x256.rank) ∈ dot_S2048x256_S256x128_S2048x128_1_0_0_1_n_n.lhsBatch by decide),
      dif_pos (show (0 : Fin S2048x256.rank) ∈ dot_S2048x256_S256x128_S2048x128_1_0_0_1_n_n.lhsNonContracting by decide)]
    rfl
  l1 := fun i q => dot_S2048x256_S256x128_S2048x128_1_0_0_1_n_n.lhsIdx_val_of_single rfl i q
  r0 := fun i q => dot_S2048x256_S256x128_S2048x128_1_0_0_1_n_n.rhsIdx_val_of_single rfl i q
  r1 := fun i q => by
    unfold DotDims.rhsIdx
    rw [dif_neg (show ¬(1 : Fin S256x128.rank) ∈ dot_S2048x256_S256x128_S2048x128_1_0_0_1_n_n.rhsBatch by decide),
      dif_pos (show (1 : Fin S256x128.rank) ∈ dot_S2048x256_S256x128_S2048x128_1_0_0_1_n_n.rhsNonContracting by decide)]
    rfl

theorem inner_out : Inner dot_S2048x128_S128x1_S2048x1_1_0_0_1_n_n where
  rank := rfl
  size := rfl
  l0 := fun i q => by
    unfold DotDims.lhsIdx
    rw [dif_neg (show ¬(0 : Fin S2048x128.rank) ∈ dot_S2048x128_S128x1_S2048x1_1_0_0_1_n_n.lhsBatch by decide),
      dif_pos (show (0 : Fin S2048x128.rank) ∈ dot_S2048x128_S128x1_S2048x1_1_0_0_1_n_n.lhsNonContracting by decide)]
    rfl
  l1 := fun i q => dot_S2048x128_S128x1_S2048x1_1_0_0_1_n_n.lhsIdx_val_of_single rfl i q
  r0 := fun i q => dot_S2048x128_S128x1_S2048x1_1_0_0_1_n_n.rhsIdx_val_of_single rfl i q
  r1 := fun i q => by
    unfold DotDims.rhsIdx
    rw [dif_neg (show ¬(1 : Fin S128x1.rank) ∈ dot_S2048x128_S128x1_S2048x1_1_0_0_1_n_n.rhsBatch by decide),
      dif_pos (show (1 : Fin S128x1.rank) ∈ dot_S2048x128_S128x1_S2048x1_1_0_0_1_n_n.rhsNonContracting by decide)]
    rfl

/-! ## The dense bodies -/

/-- The first layer's dense body: a tile of 5000 rows of 64 features against the 64 × 256 weights. -/
theorem dense0_eq (x : Vec Ideal S5000x64 .f32) (w : Vec Ideal S64x256 .f32) : k0_pay1 (F := Ideal) x w = mm x w := by
  simp only [k0_pay1]
  exact matmul_zero_eq_mm inner_features (truncf .bf16 x bitsLt_bf16_f32) (truncf .bf16 w bitsLt_bf16_f32)

/-- The second layer's dense body: a tile of 5000 rows of 256 hidden features against 256 × 256 weights. -/
theorem dense2_eq (x : Vec Ideal S5000x256 .f32) (w : Vec Ideal S256x256 .f32) : k2_pay1 (F := Ideal) x w = mm x w := by
  simp only [k2_pay1, shapeCast_self]
  exact matmul_zero_eq_mm inner_hidden (truncf .bf16 x bitsLt_bf16_f32) (truncf .bf16 w bitsLt_bf16_f32)

/-- The third layer's dense body, the same. -/
theorem dense4_eq (x : Vec Ideal S5000x256 .f32) (w : Vec Ideal S256x256 .f32) : k4_pay1 (F := Ideal) x w = mm x w := by
  simp only [k4_pay1, shapeCast_self]
  exact matmul_zero_eq_mm inner_hidden (truncf .bf16 x bitsLt_bf16_f32) (truncf .bf16 w bitsLt_bf16_f32)

/-! ## The bias bodies -/

theorem bias1_eq (x : Vec Ideal S5000x256 .f32) (r : Vec Ideal S1x256 .f32) : k1_pay1 (F := Ideal) x r = biasRelu x r := by
  simp only [k1_pay1, shapeCast_self]
  exact vector_biasRelu x r broadcasts_S1x256_S5000x256

theorem bias3_eq (x : Vec Ideal S5000x256 .f32) (r : Vec Ideal S1x256 .f32) : k3_pay1 (F := Ideal) x r = biasRelu x r := by
  simp only [k3_pay1, shapeCast_self]
  exact vector_biasRelu x r broadcasts_S1x256_S5000x256

theorem bias5_eq (x : Vec Ideal S5000x256 .f32) (r : Vec Ideal S1x256 .f32) : k5_pay1 (F := Ideal) x r = biasRelu x r := by
  simp only [k5_pay1, shapeCast_self]
  exact vector_biasRelu x r broadcasts_S1x256_S5000x256

/-! ## The head -/

/-- The pooled head of this network: the counts clamped below at the word of 1.0. -/
abbrev head (s : Mat 2048 256) (c : Mat 2048 1) (wl : Mat 256 128) (bl : Mat 1 128) (wo : Mat 128 1) (bo : Mat 1 1) : Mat 2048 1 :=
  pooledHead (Ideal.ofBits .f32 0x3F800000#32) s c wl bl wo bo

/-- The head's body stores `head` of its six loaded blocks (the counts are its first load, the sums its second). -/
theorem head_eq (c : Vec Ideal S2048x1 .f32) (s : Vec Ideal S2048x256 .f32) (wl : Vec Ideal S256x128 .f32)
    (bl : Vec Ideal S1x128 .f32) (wo : Vec Ideal S128x1 .f32) (bo : Vec Ideal S1x1 .f32) :
    k6_pay1 (F := Ideal) c s wl bl wo bo = head s c wl bl wo bo := by
  simp only [k6_pay1, shapeCast_self]
  unfold head pooledHead
  rw [← vector_rowQuot (Ideal.ofBits .f32 0x3F800000#32) s c broadcasts_S2048x1_S2048x256,
    ← matmul_zero_eq_mm (φ₁ := .bf16) (φ₂ := .bf16) inner_pooled, ← vector_biasRelu _ bl broadcasts_S1x128_S2048x128,
    ← matmul_zero_eq_mm (φ₁ := .bf16) (φ₂ := .bf16) inner_out, ← vector_addRow _ bo broadcasts_S1x1_S2048x1]
  rfl

end Cert.KernelIdeal.Stage

end
-- ==== Proof.Dense0.lean ====
/-
  The first dense launch.  Its grid has ten points; point `t` loads rows `5000 t … 5000 t + 4999` of the node features
  and the whole 64 × 256 weight matrix, and writes back the product of the two as rows `5000 t …` of the result.  A
  product's entry `(p, q)` reads row `p` of its left operand only, so the tile's product IS those rows of the product of
  the whole arrays; the ten tiles cover the 50000 rows, so the result array ends holding the whole product.
-/
import proofs.«142709_j22333829939473_1_alg».proof.Proof.Gen.KernelIdeal.Frame
import proofs.«142709_j22333829939473_1_alg».proof.Proof.Stages

set_option maxRecDepth 16384

noncomputable section

namespace Cert.KernelIdeal.Dense0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LayerLaws Cert.Gcn

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the feature tile and the result tile sit at block row `t`, the weights at
    the origin. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 10 := by have h := t.isLt; have e : cfg0.N = 10 := N_0; omega

/-- The row of the whole arrays that row `r` of tile `t` is. -/
def row (t : Fin cfg0.N) (r : Fin 5000) : Fin 50000 :=
  ⟨t.val * 5000 + r.val, by have := point_lt t; have := r.isLt; omega⟩

/-- Row `r` of the feature tile at point `t` is row `5000 t + r` of the features. -/
theorem features_tile (c : Dev nD) (t : Fin cfg0.N) (r : Fin 5000) (k : Fin 64) :
    iblk0 V c 0 t (ix2 r k) = V c main_arg0 (ix2 (row t r) k) := by
  show V c main_arg0 (((cfg0.win 0).blk t).view.emb (ix2 r k)) = V c main_arg0 (ix2 (row t r) k)
  refine congrArg (V c main_arg0) (funext fun a => Fin.ext ?_)
  obtain ⟨e0, e1, -⟩ := index_maps t
  match a with
  | ⟨0, _⟩ => show win0_0.index t (0 : Fin 2) * 5000 + 1 * r.val = t.val * 5000 + r.val; omega
  | ⟨1, _⟩ => show win0_0.index t (1 : Fin 2) * 64 + 1 * k.val = k.val; omega

/-- The weight block at every point is the whole weight matrix. -/
theorem weights_block (c : Dev nD) (t : Fin cfg0.N) (k : Fin 64) (q : Fin 256) :
    iblk0 V c 1 t (ix2 k q) = V c main_arg3 (ix2 k q) := by
  show V c main_arg3 (((cfg0.win 1).blk t).view.emb (ix2 k q)) = V c main_arg3 (ix2 k q)
  refine congrArg (V c main_arg3) (funext fun a => Fin.ext ?_)
  obtain ⟨-, -, e2, e3, -⟩ := index_maps t
  match a with
  | ⟨0, _⟩ => show win0_1.index t (0 : Fin 2) * 64 + 1 * k.val = k.val; omega
  | ⟨1, _⟩ => show win0_1.index t (1 : Fin 2) * 256 + 1 * q.val = q.val; omega

/-- Entry `(r, q)` of the result tile at point `t` is entry `(5000 t + r, q)` of the result. -/
theorem result_tile (t : Fin cfg0.N) (r : Fin 5000) (q : Fin 256) :
    ((cfg0.win 2).blk t).view.emb (ix2 r q) = ix2 (row t r) q := by
  refine funext fun a => Fin.ext ?_
  obtain ⟨-, -, -, -, e4, e5⟩ := index_maps t
  match a with
  | ⟨0, _⟩ => show win0_2.index t (0 : Fin 2) * 5000 + 1 * r.val = t.val * 5000 + r.val; omega
  | ⟨1, _⟩ => show win0_2.index t (1 : Fin 2) * 256 + 1 * q.val = q.val; omega

/-- What point `t` writes back is block `t` of the product of the whole arrays. -/
theorem flushed_eq (c : Dev nD) (t : Fin cfg0.N) :
    (dat0 V c).flushed 2 t = ((cfg0.win 2).blk t).view.read (Elt Ideal) (mm (V c main_arg0) (V c main_arg3)) := by
  show (cfg0.win 2).cut (grid0.coords t) ((dat0 V c).after 2 t) = _
  rw [after0_2]
  unfold out0_2
  rw [View.canon_unit_zero zeros]
  simp only [View.ld_unit_zero (S := S5000x64) zeros, View.ld_unit_zero (S := S64x256) zeros]
  funext j
  obtain ⟨r, q, rfl⟩ : ∃ (r : Fin 5000) (q : Fin 256), j = ix2 r q := ⟨j 0, j 1, eq_ix2 j⟩
  refine (congrFun (Stage.dense0_eq _ _) (ix2 r q)).trans ?_
  refine ((mm_apply _ _ r q).trans ?_).trans (congrArg (mm (V c main_arg0) (V c main_arg3)) (result_tile t r q)).symm
  rw [mm_apply]
  exact Finset.sum_congr rfl fun k _ => by rw [features_tile V c t r k, weights_block V c t k q]

/-- An index of the result is in point `t`'s block iff its row is among the tile's 5000 (and its column among all 256). -/
theorem mem_block (t : Fin cfg0.N) (i : S50000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v32).slice (win0_2.rect t)).set ↔ _
  rw [View.set_slice_whole, Rect.mem_set_unit]
  exact Iff.rfl

/-- Every index of the result is in some point's block: row `p` is in tile `p / 5000`. -/
theorem cover (i : S50000x256.Idx) :
    ∃ t : Fin cfg0.N, (cfg0.win 2).flush t = true ∧ i ∈ ((cfg0.win 2).blk t).view.set := by
  have h0 : (i 0).val < 50000 := (i 0).isLt
  have h1 : (i 1).val < 256 := (i 1).isLt
  let t : Fin cfg0.N := ⟨(i 0).val / 5000, by have e : cfg0.N = 10 := N_0; omega⟩
  obtain ⟨-, -, -, -, e4, e5⟩ := index_maps t
  have et : t.val = (i 0).val / 5000 := rfl
  refine ⟨t, flush0_2 t, (mem_block t i).mpr fun a => ?_⟩
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 256 ≤ (i 1).val ∧ (i 1).val < win0_2.index t (1 : Fin 2) * 256 + 256
    omega

/-- After the launch the result array holds the product of the features and the weights as the launch found them. -/
theorem final (c : Dev nD) : (dat0 V c).arrAt 2 cfg0.N = mm (V c main_arg0) (V c main_arg3) :=
  (dat0 V c).arrAt_eq_of_cover 2 _ (fun t _ => flushed_eq V c t) cover

end Cert.KernelIdeal.Dense0

end
-- ==== Proof.Bias1.lean ====
/-
  The first bias launch.  Its grid has ten points; point `t` loads rows `5000 t … 5000 t + 4999` of the aggregated
  features and the whole one-row bias, and writes back `max (x(p,q) + bias(0,q)) 0` as rows `5000 t …` of the result.
  The entry `(p, q)` reads entry `(p, q)` of the features and entry `(0, q)` of the bias only, so a tile of the result IS
  those rows of the same function of the whole arrays; the ten tiles cover the 50000 rows.
-/
import proofs.«142709_j22333829939473_1_alg».proof.Proof.Gen.KernelIdeal.Frame
import proofs.«142709_j22333829939473_1_alg».proof.Proof.Stages

set_option maxRecDepth 16384

noncomputable section

namespace Cert.KernelIdeal.Bias1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LayerLaws Cert.Gcn

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the feature tile and the result tile sit at block row `t`, the bias row at
    the origin. -/
theorem index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem point_lt (t : Fin cfg1.N) : t.val < 10 := by have h := t.isLt; have e : cfg1.N = 10 := N_1; omega

/-- The row of the whole arrays that row `r` of tile `t` is. -/
def row (t : Fin cfg1.N) (r : Fin 5000) : Fin 50000 :=
  ⟨t.val * 5000 + r.val, by have := point_lt t; have := r.isLt; omega⟩

/-- Entry `(r, q)` of the feature tile at point `t` is entry `(5000 t + r, q)` of the features. -/
theorem features_tile (c : Dev nD) (t : Fin cfg1.N) (r : Fin 5000) (q : Fin 256) :
    iblk1 V c 0 t (ix2 r q) = V c main_v45 (ix2 (row t r) q) := by
  show V c main_v45 (((cfg1.win 0).blk t).view.emb (ix2 r q)) = V c main_v45 (ix2 (row t r) q)
  refine congrArg (V c main_v45) (funext fun a => Fin.ext ?_)
  obtain ⟨e0, e1, -⟩ := index_maps t
  match a with
  | ⟨0, _⟩ => show win1_0.index t (0 : Fin 2) * 5000 + 1 * r.val = t.val * 5000 + r.val; omega
  | ⟨1, _⟩ => show win1_0.index t (1 : Fin 2) * 256 + 1 * q.val = q.val; omega

/-- The bias block at every point is the whole one-row bias. -/
theorem bias_block (c : Dev nD) (t : Fin cfg1.N) (q : Fin 256) :
    iblk1 V c 1 t (ix2 (0 : Fin 1) q) = V c main_v46 (ix2 (0 : Fin 1) q) := by
  show V c main_v46 (((cfg1.win 1).blk t).view.emb (ix2 (0 : Fin 1) q)) = V c main_v46 (ix2 (0 : Fin 1) q)
  refine congrArg (V c main_v46) (funext fun a => Fin.ext ?_)
  obtain ⟨-, -, e2, e3, -⟩ := index_maps t
  match a with
  | ⟨0, _⟩ => show win1_1.index t (0 : Fin 2) * 1 + 1 * 0 = 0; omega
  | ⟨1, _⟩ => show win1_1.index t (1 : Fin 2) * 256 + 1 * q.val = q.val; omega

/-- Entry `(r, q)` of the result tile at point `t` is entry `(5000 t + r, q)` of the result. -/
theorem result_tile (t : Fin cfg1.N) (r : Fin 5000) (q : Fin 256) :
    ((cfg1.win 2).blk t).view.emb (ix2 r q) = ix2 (row t r) q := by
  refine funext fun a => Fin.ext ?_
  obtain ⟨-, -, -, -, e4, e5⟩ := index_maps t
  match a with
  | ⟨0, _⟩ => show win1_2.index t (0 : Fin 2) * 5000 + 1 * r.val = t.val * 5000 + r.val; omega
  | ⟨1, _⟩ => show win1_2.index t (1 : Fin 2) * 256 + 1 * q.val = q.val; omega

/-- What point `t` writes back is block `t` of `biasRelu` of the whole arrays. -/
theorem flushed_eq (c : Dev nD) (t : Fin cfg1.N) :
    (dat1 V c).flushed 2 t = ((cfg1.win 2).blk t).view.read (Elt Ideal) (biasRelu (V c main_v45) (V c main_v46)) := by
  show (cfg1.win 2).cut (grid1.coords t) ((dat1 V c).after 2 t) = _
  rw [after1_2]
  unfold out1_2
  rw [View.canon_unit_zero zeros]
  simp only [View.ld_unit_zero (S := S5000x256) zeros, View.ld_unit_zero (S := S1x256) zeros]
  funext j
  obtain ⟨r, q, rfl⟩ : ∃ (r : Fin 5000) (q : Fin 256), j = ix2 r q := ⟨j 0, j 1, eq_ix2 j⟩
  refine (congrFun (Stage.bias1_eq _ _) (ix2 r q)).trans ?_
  refine ((biasRelu_apply _ _ r q).trans ?_).trans (congrArg (biasRelu (V c main_v45) (V c main_v46)) (result_tile t r q)).symm
  rw [biasRelu_apply, features_tile V c t r q, bias_block V c t q]

/-- An index of the result is in point `t`'s block iff its row is among the tile's 5000 (and its column among all 256). -/
theorem mem_block (t : Fin cfg1.N) (i : S50000x256.Idx) :
    i ∈ ((cfg1.win 2).blk t).view.set ↔ ∀ a : Fin 2, win1_2.index t a * S5000x256.size a ≤ (i a).val
      ∧ (i a).val < win1_2.index t a * S5000x256.size a + S5000x256.size a := by
  show i ∈ ((View.whole main_v47).slice (win1_2.rect t)).set ↔ _
  rw [View.set_slice_whole, Rect.mem_set_unit]
  exact Iff.rfl

/-- Every index of the result is in some point's block: row `p` is in tile `p / 5000`. -/
theorem cover (i : S50000x256.Idx) :
    ∃ t : Fin cfg1.N, (cfg1.win 2).flush t = true ∧ i ∈ ((cfg1.win 2).blk t).view.set := by
  have h0 : (i 0).val < 50000 := (i 0).isLt
  have h1 : (i 1).val < 256 := (i 1).isLt
  let t : Fin cfg1.N := ⟨(i 0).val / 5000, by have e : cfg1.N = 10 := N_1; omega⟩
  obtain ⟨-, -, -, -, e4, e5⟩ := index_maps t
  have et : t.val = (i 0).val / 5000 := rfl
  refine ⟨t, flush1_2 t, (mem_block t i).mpr fun a => ?_⟩
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 256 ≤ (i 1).val ∧ (i 1).val < win1_2.index t (1 : Fin 2) * 256 + 256
    omega

/-- After the launch the result array holds `biasRelu` of the aggregated features and the bias row as the launch found
    them. -/
theorem final (c : Dev nD) : (dat1 V c).arrAt 2 cfg1.N = biasRelu (V c main_v45) (V c main_v46) :=
  (dat1 V c).arrAt_eq_of_cover 2 _ (fun t _ => flushed_eq V c t) cover

end Cert.KernelIdeal.Bias1

end
-- ==== Proof.Dense2.lean ====
/-
  The second dense launch.  Its grid has ten points; point `t` loads rows `5000 t … 5000 t + 4999` of the layer before
  and the whole 256 × 256 weight matrix, and writes back the product of the two as rows `5000 t …` of the result.  A
  product's entry `(p, q)` reads row `p` of its left operand only, so the tile's product IS those rows of the product of
  the whole arrays; the ten tiles cover the 50000 rows, so the result array ends holding the whole product.
-/
import proofs.«142709_j22333829939473_1_alg».proof.Proof.Gen.KernelIdeal.Frame
import proofs.«142709_j22333829939473_1_alg».proof.Proof.Stages

set_option maxRecDepth 16384

noncomputable section

namespace Cert.KernelIdeal.Dense2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LayerLaws Cert.Gcn

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the feature tile and the result tile sit at block row `t`, the weights at
    the origin. -/
theorem index_maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem point_lt (t : Fin cfg2.N) : t.val < 10 := by have h := t.isLt; have e : cfg2.N = 10 := N_2; omega

/-- The row of the whole arrays that row `r` of tile `t` is. -/
def row (t : Fin cfg2.N) (r : Fin 5000) : Fin 50000 :=
  ⟨t.val * 5000 + r.val, by have := point_lt t; have := r.isLt; omega⟩

/-- Row `r` of the feature tile at point `t` is row `5000 t + r` of the features. -/
theorem features_tile (c : Dev nD) (t : Fin cfg2.N) (r : Fin 5000) (k : Fin 256) :
    iblk2 V c 0 t (ix2 r k) = V c main_v47 (ix2 (row t r) k) := by
  show V c main_v47 (((cfg2.win 0).blk t).view.emb (ix2 r k)) = V c main_v47 (ix2 (row t r) k)
  refine congrArg (V c main_v47) (funext fun a => Fin.ext ?_)
  obtain ⟨e0, e1, -⟩ := index_maps t
  match a with
  | ⟨0, _⟩ => show win2_0.index t (0 : Fin 2) * 5000 + 1 * r.val = t.val * 5000 + r.val; omega
  | ⟨1, _⟩ => show win2_0.index t (1 : Fin 2) * 256 + 1 * k.val = k.val; omega

/-- The weight block at every point is the whole weight matrix. -/
theorem weights_block (c : Dev nD) (t : Fin cfg2.N) (k : Fin 256) (q : Fin 256) :
    iblk2 V c 1 t (ix2 k q) = V c main_arg5 (ix2 k q) := by
  show V c main_arg5 (((cfg2.win 1).blk t).view.emb (ix2 k q)) = V c main_arg5 (ix2 k q)
  refine congrArg (V c main_arg5) (funext fun a => Fin.ext ?_)
  obtain ⟨-, -, e2, e3, -⟩ := index_maps t
  match a with
  | ⟨0, _⟩ => show win2_1.index t (0 : Fin 2) * 256 + 1 * k.val = k.val; omega
  | ⟨1, _⟩ => show win2_1.index t (1 : Fin 2) * 256 + 1 * q.val = q.val; omega

/-- Entry `(r, q)` of the result tile at point `t` is entry `(5000 t + r, q)` of the result. -/
theorem result_tile (t : Fin cfg2.N) (r : Fin 5000) (q : Fin 256) :
    ((cfg2.win 2).blk t).view.emb (ix2 r q) = ix2 (row t r) q := by
  refine funext fun a => Fin.ext ?_
  obtain ⟨-, -, -, -, e4, e5⟩ := index_maps t
  match a with
  | ⟨0, _⟩ => show win2_2.index t (0 : Fin 2) * 5000 + 1 * r.val = t.val * 5000 + r.val; omega
  | ⟨1, _⟩ => show win2_2.index t (1 : Fin 2) * 256 + 1 * q.val = q.val; omega

/-- What point `t` writes back is block `t` of the product of the whole arrays. -/
theorem flushed_eq (c : Dev nD) (t : Fin cfg2.N) :
    (dat2 V c).flushed 2 t = ((cfg2.win 2).blk t).view.read (Elt Ideal) (mm (V c main_v47) (V c main_arg5)) := by
  show (cfg2.win 2).cut (grid2.coords t) ((dat2 V c).after 2 t) = _
  rw [after2_2]
  unfold out2_2
  rw [View.canon_unit_zero zeros]
  simp only [View.ld_unit_zero (S := S5000x256) zeros, View.ld_unit_zero (S := S256x256) zeros]
  funext j
  obtain ⟨r, q, rfl⟩ : ∃ (r : Fin 5000) (q : Fin 256), j = ix2 r q := ⟨j 0, j 1, eq_ix2 j⟩
  refine (congrFun (Stage.dense2_eq _ _) (ix2 r q)).trans ?_
  refine ((mm_apply _ _ r q).trans ?_).trans (congrArg (mm (V c main_v47) (V c main_arg5)) (result_tile t r q)).symm
  rw [mm_apply]
  exact Finset.sum_congr rfl fun k _ => by rw [features_tile V c t r k, weights_block V c t k q]

/-- An index of the result is in point `t`'s block iff its row is among the tile's 5000 (and its column among all 256). -/
theorem mem_block (t : Fin cfg2.N) (i : S50000x256.Idx) :
    i ∈ ((cfg2.win 2).blk t).view.set ↔ ∀ a : Fin 2, win2_2.index t a * S5000x256.size a ≤ (i a).val
      ∧ (i a).val < win2_2.index t a * S5000x256.size a + S5000x256.size a := by
  show i ∈ ((View.whole main_v48).slice (win2_2.rect t)).set ↔ _
  rw [View.set_slice_whole, Rect.mem_set_unit]
  exact Iff.rfl

/-- Every index of the result is in some point's block: row `p` is in tile `p / 5000`. -/
theorem cover (i : S50000x256.Idx) :
    ∃ t : Fin cfg2.N, (cfg2.win 2).flush t = true ∧ i ∈ ((cfg2.win 2).blk t).view.set := by
  have h0 : (i 0).val < 50000 := (i 0).isLt
  have h1 : (i 1).val < 256 := (i 1).isLt
  let t : Fin cfg2.N := ⟨(i 0).val / 5000, by have e : cfg2.N = 10 := N_2; omega⟩
  obtain ⟨-, -, -, -, e4, e5⟩ := index_maps t
  have et : t.val = (i 0).val / 5000 := rfl
  refine ⟨t, flush2_2 t, (mem_block t i).mpr fun a => ?_⟩
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 256 ≤ (i 1).val ∧ (i 1).val < win2_2.index t (1 : Fin 2) * 256 + 256
    omega

/-- After the launch the result array holds the product of the features and the weights as the launch found them. -/
theorem final (c : Dev nD) : (dat2 V c).arrAt 2 cfg2.N = mm (V c main_v47) (V c main_arg5) :=
  (dat2 V c).arrAt_eq_of_cover 2 _ (fun t _ => flushed_eq V c t) cover

end Cert.KernelIdeal.Dense2

end
-- ==== Proof.Bias3.lean ====
/-
  The second bias launch.  Its grid has ten points; point `t` loads rows `5000 t … 5000 t + 4999` of the aggregated
  features and the whole one-row bias, and writes back `max (x(p,q) + bias(0,q)) 0` as rows `5000 t …` of the result.
  The entry `(p, q)` reads entry `(p, q)` of the features and entry `(0, q)` of the bias only, so a tile of the result IS
  those rows of the same function of the whole arrays; the ten tiles cover the 50000 rows.
-/
import proofs.«142709_j22333829939473_1_alg».proof.Proof.Gen.KernelIdeal.Frame
import proofs.«142709_j22333829939473_1_alg».proof.Proof.Stages

set_option maxRecDepth 16384

noncomputable section

namespace Cert.KernelIdeal.Bias3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LayerLaws Cert.Gcn

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the feature tile and the result tile sit at block row `t`, the bias row at
    the origin. -/
theorem index_maps : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem point_lt (t : Fin cfg3.N) : t.val < 10 := by have h := t.isLt; have e : cfg3.N = 10 := N_3; omega

/-- The row of the whole arrays that row `r` of tile `t` is. -/
def row (t : Fin cfg3.N) (r : Fin 5000) : Fin 50000 :=
  ⟨t.val * 5000 + r.val, by have := point_lt t; have := r.isLt; omega⟩

/-- Entry `(r, q)` of the feature tile at point `t` is entry `(5000 t + r, q)` of the features. -/
theorem features_tile (c : Dev nD) (t : Fin cfg3.N) (r : Fin 5000) (q : Fin 256) :
    iblk3 V c 0 t (ix2 r q) = V c main_v61 (ix2 (row t r) q) := by
  show V c main_v61 (((cfg3.win 0).blk t).view.emb (ix2 r q)) = V c main_v61 (ix2 (row t r) q)
  refine congrArg (V c main_v61) (funext fun a => Fin.ext ?_)
  obtain ⟨e0, e1, -⟩ := index_maps t
  match a with
  | ⟨0, _⟩ => show win3_0.index t (0 : Fin 2) * 5000 + 1 * r.val = t.val * 5000 + r.val; omega
  | ⟨1, _⟩ => show win3_0.index t (1 : Fin 2) * 256 + 1 * q.val = q.val; omega

/-- The bias block at every point is the whole one-row bias. -/
theorem bias_block (c : Dev nD) (t : Fin cfg3.N) (q : Fin 256) :
    iblk3 V c 1 t (ix2 (0 : Fin 1) q) = V c main_v62 (ix2 (0 : Fin 1) q) := by
  show V c main_v62 (((cfg3.win 1).blk t).view.emb (ix2 (0 : Fin 1) q)) = V c main_v62 (ix2 (0 : Fin 1) q)
  refine congrArg (V c main_v62) (funext fun a => Fin.ext ?_)
  obtain ⟨-, -, e2, e3, -⟩ := index_maps t
  match a with
  | ⟨0, _⟩ => show win3_1.index t (0 : Fin 2) * 1 + 1 * 0 = 0; omega
  | ⟨1, _⟩ => show win3_1.index t (1 : Fin 2) * 256 + 1 * q.val = q.val; omega

/-- Entry `(r, q)` of the result tile at point `t` is entry `(5000 t + r, q)` of the result. -/
theorem result_tile (t : Fin cfg3.N) (r : Fin 5000) (q : Fin 256) :
    ((cfg3.win 2).blk t).view.emb (ix2 r q) = ix2 (row t r) q := by
  refine funext fun a => Fin.ext ?_
  obtain ⟨-, -, -, -, e4, e5⟩ := index_maps t
  match a with
  | ⟨0, _⟩ => show win3_2.index t (0 : Fin 2) * 5000 + 1 * r.val = t.val * 5000 + r.val; omega
  | ⟨1, _⟩ => show win3_2.index t (1 : Fin 2) * 256 + 1 * q.val = q.val; omega

/-- What point `t` writes back is block `t` of `biasRelu` of the whole arrays. -/
theorem flushed_eq (c : Dev nD) (t : Fin cfg3.N) :
    (dat3 V c).flushed 2 t = ((cfg3.win 2).blk t).view.read (Elt Ideal) (biasRelu (V c main_v61) (V c main_v62)) := by
  show (cfg3.win 2).cut (grid3.coords t) ((dat3 V c).after 2 t) = _
  rw [after3_2]
  unfold out3_2
  rw [View.canon_unit_zero zeros]
  simp only [View.ld_unit_zero (S := S5000x256) zeros, View.ld_unit_zero (S := S1x256) zeros]
  funext j
  obtain ⟨r, q, rfl⟩ : ∃ (r : Fin 5000) (q : Fin 256), j = ix2 r q := ⟨j 0, j 1, eq_ix2 j⟩
  refine (congrFun (Stage.bias3_eq _ _) (ix2 r q)).trans ?_
  refine ((biasRelu_apply _ _ r q).trans ?_).trans (congrArg (biasRelu (V c main_v61) (V c main_v62)) (result_tile t r q)).symm
  rw [biasRelu_apply, features_tile V c t r q, bias_block V c t q]

/-- An index of the result is in point `t`'s block iff its row is among the tile's 5000 (and its column among all 256). -/
theorem mem_block (t : Fin cfg3.N) (i : S50000x256.Idx) :
    i ∈ ((cfg3.win 2).blk t).view.set ↔ ∀ a : Fin 2, win3_2.index t a * S5000x256.size a ≤ (i a).val
      ∧ (i a).val < win3_2.index t a * S5000x256.size a + S5000x256.size a := by
  show i ∈ ((View.whole main_v63).slice (win3_2.rect t)).set ↔ _
  rw [View.set_slice_whole, Rect.mem_set_unit]
  exact Iff.rfl

/-- Every index of the result is in some point's block: row `p` is in tile `p / 5000`. -/
theorem cover (i : S50000x256.Idx) :
    ∃ t : Fin cfg3.N, (cfg3.win 2).flush t = true ∧ i ∈ ((cfg3.win 2).blk t).view.set := by
  have h0 : (i 0).val < 50000 := (i 0).isLt
  have h1 : (i 1).val < 256 := (i 1).isLt
  let t : Fin cfg3.N := ⟨(i 0).val / 5000, by have e : cfg3.N = 10 := N_3; omega⟩
  obtain ⟨-, -, -, -, e4, e5⟩ := index_maps t
  have et : t.val = (i 0).val / 5000 := rfl
  refine ⟨t, flush3_2 t, (mem_block t i).mpr fun a => ?_⟩
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 256 ≤ (i 1).val ∧ (i 1).val < win3_2.index t (1 : Fin 2) * 256 + 256
    omega

/-- After the launch the result array holds `biasRelu` of the aggregated features and the bias row as the launch found
    them. -/
theorem final (c : Dev nD) : (dat3 V c).arrAt 2 cfg3.N = biasRelu (V c main_v61) (V c main_v62) :=
  (dat3 V c).arrAt_eq_of_cover 2 _ (fun t _ => flushed_eq V c t) cover

end Cert.KernelIdeal.Bias3

end
-- ==== Proof.Dense4.lean ====
/-
  The third dense launch.  Its grid has ten points; point `t` loads rows `5000 t … 5000 t + 4999` of the layer before
  and the whole 256 × 256 weight matrix, and writes back the product of the two as rows `5000 t …` of the result.  A
  product's entry `(p, q)` reads row `p` of its left operand only, so the tile's product IS those rows of the product of
  the whole arrays; the ten tiles cover the 50000 rows, so the result array ends holding the whole product.
-/
import proofs.«142709_j22333829939473_1_alg».proof.Proof.Gen.KernelIdeal.Frame
import proofs.«142709_j22333829939473_1_alg».proof.Proof.Stages

set_option maxRecDepth 16384

noncomputable section

namespace Cert.KernelIdeal.Dense4

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LayerLaws Cert.Gcn

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the feature tile and the result tile sit at block row `t`, the weights at
    the origin. -/
theorem index_maps : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem point_lt (t : Fin cfg4.N) : t.val < 10 := by have h := t.isLt; have e : cfg4.N = 10 := N_4; omega

/-- The row of the whole arrays that row `r` of tile `t` is. -/
def row (t : Fin cfg4.N) (r : Fin 5000) : Fin 50000 :=
  ⟨t.val * 5000 + r.val, by have := point_lt t; have := r.isLt; omega⟩

/-- Row `r` of the feature tile at point `t` is row `5000 t + r` of the features. -/
theorem features_tile (c : Dev nD) (t : Fin cfg4.N) (r : Fin 5000) (k : Fin 256) :
    iblk4 V c 0 t (ix2 r k) = V c main_v63 (ix2 (row t r) k) := by
  show V c main_v63 (((cfg4.win 0).blk t).view.emb (ix2 r k)) = V c main_v63 (ix2 (row t r) k)
  refine congrArg (V c main_v63) (funext fun a => Fin.ext ?_)
  obtain ⟨e0, e1, -⟩ := index_maps t
  match a with
  | ⟨0, _⟩ => show win4_0.index t (0 : Fin 2) * 5000 + 1 * r.val = t.val * 5000 + r.val; omega
  | ⟨1, _⟩ => show win4_0.index t (1 : Fin 2) * 256 + 1 * k.val = k.val; omega

/-- The weight block at every point is the whole weight matrix. -/
theorem weights_block (c : Dev nD) (t : Fin cfg4.N) (k : Fin 256) (q : Fin 256) :
    iblk4 V c 1 t (ix2 k q) = V c main_arg7 (ix2 k q) := by
  show V c main_arg7 (((cfg4.win 1).blk t).view.emb (ix2 k q)) = V c main_arg7 (ix2 k q)
  refine congrArg (V c main_arg7) (funext fun a => Fin.ext ?_)
  obtain ⟨-, -, e2, e3, -⟩ := index_maps t
  match a with
  | ⟨0, _⟩ => show win4_1.index t (0 : Fin 2) * 256 + 1 * k.val = k.val; omega
  | ⟨1, _⟩ => show win4_1.index t (1 : Fin 2) * 256 + 1 * q.val = q.val; omega

/-- Entry `(r, q)` of the result tile at point `t` is entry `(5000 t + r, q)` of the result. -/
theorem result_tile (t : Fin cfg4.N) (r : Fin 5000) (q : Fin 256) :
    ((cfg4.win 2).blk t).view.emb (ix2 r q) = ix2 (row t r) q := by
  refine funext fun a => Fin.ext ?_
  obtain ⟨-, -, -, -, e4, e5⟩ := index_maps t
  match a with
  | ⟨0, _⟩ => show win4_2.index t (0 : Fin 2) * 5000 + 1 * r.val = t.val * 5000 + r.val; omega
  | ⟨1, _⟩ => show win4_2.index t (1 : Fin 2) * 256 + 1 * q.val = q.val; omega

/-- What point `t` writes back is block `t` of the product of the whole arrays. -/
theorem flushed_eq (c : Dev nD) (t : Fin cfg4.N) :
    (dat4 V c).flushed 2 t = ((cfg4.win 2).blk t).view.read (Elt Ideal) (mm (V c main_v63) (V c main_arg7)) := by
  show (cfg4.win 2).cut (grid4.coords t) ((dat4 V c).after 2 t) = _
  rw [after4_2]
  unfold out4_2
  rw [View.canon_unit_zero zeros]
  simp only [View.ld_unit_zero (S := S5000x256) zeros, View.ld_unit_zero (S := S256x256) zeros]
  funext j
  obtain ⟨r, q, rfl⟩ : ∃ (r : Fin 5000) (q : Fin 256), j = ix2 r q := ⟨j 0, j 1, eq_ix2 j⟩
  refine (congrFun (Stage.dense4_eq _ _) (ix2 r q)).trans ?_
  refine ((mm_apply _ _ r q).trans ?_).trans (congrArg (mm (V c main_v63) (V c main_arg7)) (result_tile t r q)).symm
  rw [mm_apply]
  exact Finset.sum_congr rfl fun k _ => by rw [features_tile V c t r k, weights_block V c t k q]

/-- An index of the result is in point `t`'s block iff its row is among the tile's 5000 (and its column among all 256). -/
theorem mem_block (t : Fin cfg4.N) (i : S50000x256.Idx) :
    i ∈ ((cfg4.win 2).blk t).view.set ↔ ∀ a : Fin 2, win4_2.index t a * S5000x256.size a ≤ (i a).val
      ∧ (i a).val < win4_2.index t a * S5000x256.size a + S5000x256.size a := by
  show i ∈ ((View.whole main_v64).slice (win4_2.rect t)).set ↔ _
  rw [View.set_slice_whole, Rect.mem_set_unit]
  exact Iff.rfl

/-- Every index of the result is in some point's block: row `p` is in tile `p / 5000`. -/
theorem cover (i : S50000x256.Idx) :
    ∃ t : Fin cfg4.N, (cfg4.win 2).flush t = true ∧ i ∈ ((cfg4.win 2).blk t).view.set := by
  have h0 : (i 0).val < 50000 := (i 0).isLt
  have h1 : (i 1).val < 256 := (i 1).isLt
  let t : Fin cfg4.N := ⟨(i 0).val / 5000, by have e : cfg4.N = 10 := N_4; omega⟩
  obtain ⟨-, -, -, -, e4, e5⟩ := index_maps t
  have et : t.val = (i 0).val / 5000 := rfl
  refine ⟨t, flush4_2 t, (mem_block t i).mpr fun a => ?_⟩
  match a with
  | ⟨0, _⟩ =>
    show win4_2.index t (0 : Fin 2) * 5000 ≤ (i 0).val ∧ (i 0).val < win4_2.index t (0 : Fin 2) * 5000 + 5000
    omega
  | ⟨1, _⟩ =>
    show win4_2.index t (1 : Fin 2) * 256 ≤ (i 1).val ∧ (i 1).val < win4_2.index t (1 : Fin 2) * 256 + 256
    omega

/-- After the launch the result array holds the product of the features and the weights as the launch found them. -/
theorem final (c : Dev nD) : (dat4 V c).arrAt 2 cfg4.N = mm (V c main_v63) (V c main_arg7) :=
  (dat4 V c).arrAt_eq_of_cover 2 _ (fun t _ => flushed_eq V c t) cover

end Cert.KernelIdeal.Dense4

end
-- ==== Proof.Bias5.lean ====
/-
  The third bias launch.  Its grid has ten points; point `t` loads rows `5000 t … 5000 t + 4999` of the aggregated
  features and the whole one-row bias, and writes back `max (x(p,q) + bias(0,q)) 0` as rows `5000 t …` of the result.
  The entry `(p, q)` reads entry `(p, q)` of the features and entry `(0, q)` of the bias only, so a tile of the result IS
  those rows of the same function of the whole arrays; the ten tiles cover the 50000 rows.
-/
import proofs.«142709_j22333829939473_1_alg».proof.Proof.Gen.KernelIdeal.Frame
import proofs.«142709_j22333829939473_1_alg».proof.Proof.Stages

set_option maxRecDepth 16384

noncomputable section

namespace Cert.KernelIdeal.Bias5

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LayerLaws Cert.Gcn

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the feature tile and the result tile sit at block row `t`, the bias row at
    the origin. -/
theorem index_maps : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

theorem point_lt (t : Fin cfg5.N) : t.val < 10 := by have h := t.isLt; have e : cfg5.N = 10 := N_5; omega

/-- The row of the whole arrays that row `r` of tile `t` is. -/
def row (t : Fin cfg5.N) (r : Fin 5000) : Fin 50000 :=
  ⟨t.val * 5000 + r.val, by have := point_lt t; have := r.isLt; omega⟩

/-- Entry `(r, q)` of the feature tile at point `t` is entry `(5000 t + r, q)` of the features. -/
theorem features_tile (c : Dev nD) (t : Fin cfg5.N) (r : Fin 5000) (q : Fin 256) :
    iblk5 V c 0 t (ix2 r q) = V c main_v77 (ix2 (row t r) q) := by
  show V c main_v77 (((cfg5.win 0).blk t).view.emb (ix2 r q)) = V c main_v77 (ix2 (row t r) q)
  refine congrArg (V c main_v77) (funext fun a => Fin.ext ?_)
  obtain ⟨e0, e1, -⟩ := index_maps t
  match a with
  | ⟨0, _⟩ => show win5_0.index t (0 : Fin 2) * 5000 + 1 * r.val = t.val * 5000 + r.val; omega
  | ⟨1, _⟩ => show win5_0.index t (1 : Fin 2) * 256 + 1 * q.val = q.val; omega

/-- The bias block at every point is the whole one-row bias. -/
theorem bias_block (c : Dev nD) (t : Fin cfg5.N) (q : Fin 256) :
    iblk5 V c 1 t (ix2 (0 : Fin 1) q) = V c main_v78 (ix2 (0 : Fin 1) q) := by
  show V c main_v78 (((cfg5.win 1).blk t).view.emb (ix2 (0 : Fin 1) q)) = V c main_v78 (ix2 (0 : Fin 1) q)
  refine congrArg (V c main_v78) (funext fun a => Fin.ext ?_)
  obtain ⟨-, -, e2, e3, -⟩ := index_maps t
  match a with
  | ⟨0, _⟩ => show win5_1.index t (0 : Fin 2) * 1 + 1 * 0 = 0; omega
  | ⟨1, _⟩ => show win5_1.index t (1 : Fin 2) * 256 + 1 * q.val = q.val; omega

/-- Entry `(r, q)` of the result tile at point `t` is entry `(5000 t + r, q)` of the result. -/
theorem result_tile (t : Fin cfg5.N) (r : Fin 5000) (q : Fin 256) :
    ((cfg5.win 2).blk t).view.emb (ix2 r q) = ix2 (row t r) q := by
  refine funext fun a => Fin.ext ?_
  obtain ⟨-, -, -, -, e4, e5⟩ := index_maps t
  match a with
  | ⟨0, _⟩ => show win5_2.index t (0 : Fin 2) * 5000 + 1 * r.val = t.val * 5000 + r.val; omega
  | ⟨1, _⟩ => show win5_2.index t (1 : Fin 2) * 256 + 1 * q.val = q.val; omega

/-- What point `t` writes back is block `t` of `biasRelu` of the whole arrays. -/
theorem flushed_eq (c : Dev nD) (t : Fin cfg5.N) :
    (dat5 V c).flushed 2 t = ((cfg5.win 2).blk t).view.read (Elt Ideal) (biasRelu (V c main_v77) (V c main_v78)) := by
  show (cfg5.win 2).cut (grid5.coords t) ((dat5 V c).after 2 t) = _
  rw [after5_2]
  unfold out5_2
  rw [View.canon_unit_zero zeros]
  simp only [View.ld_unit_zero (S := S5000x256) zeros, View.ld_unit_zero (S := S1x256) zeros]
  funext j
  obtain ⟨r, q, rfl⟩ : ∃ (r : Fin 5000) (q : Fin 256), j = ix2 r q := ⟨j 0, j 1, eq_ix2 j⟩
  refine (congrFun (Stage.bias5_eq _ _) (ix2 r q)).trans ?_
  refine ((biasRelu_apply _ _ r q).trans ?_).trans (congrArg (biasRelu (V c main_v77) (V c main_v78)) (result_tile t r q)).symm
  rw [biasRelu_apply, features_tile V c t r q, bias_block V c t q]

/-- An index of the result is in point `t`'s block iff its row is among the tile's 5000 (and its column among all 256). -/
theorem mem_block (t : Fin cfg5.N) (i : S50000x256.Idx) :
    i ∈ ((cfg5.win 2).blk t).view.set ↔ ∀ a : Fin 2, win5_2.index t a * S5000x256.size a ≤ (i a).val
      ∧ (i a).val < win5_2.index t a * S5000x256.size a + S5000x256.size a := by
  show i ∈ ((View.whole main_v79).slice (win5_2.rect t)).set ↔ _
  rw [View.set_slice_whole, Rect.mem_set_unit]
  exact Iff.rfl

/-- Every index of the result is in some point's block: row `p` is in tile `p / 5000`. -/
theorem cover (i : S50000x256.Idx) :
    ∃ t : Fin cfg5.N, (cfg5.win 2).flush t = true ∧ i ∈ ((cfg5.win 2).blk t).view.set := by
  have h0 : (i 0).val < 50000 := (i 0).isLt
  have h1 : (i 1).val < 256 := (i 1).isLt
  let t : Fin cfg5.N := ⟨(i 0).val / 5000, by have e : cfg5.N = 10 := N_5; omega⟩
  obtain ⟨-, -, -, -, e4, e5⟩ := index_maps t
  have et : t.val = (i 0).val / 5000 := rfl
  refine ⟨t, flush5_2 t, (mem_block t i).mpr fun a => ?_⟩
  match a with
  | ⟨0, _⟩ =>
    show win5_2.index t (0 : Fin 2) * 5000 ≤ (i 0).val ∧ (i 0).val < win5_2.index t (0 : Fin 2) * 5000 + 5000
    omega
  | ⟨1, _⟩ =>
    show win5_2.index t (1 : Fin 2) * 256 ≤ (i 1).val ∧ (i 1).val < win5_2.index t (1 : Fin 2) * 256 + 256
    omega

/-- After the launch the result array holds `biasRelu` of the aggregated features and the bias row as the launch found
    them. -/
theorem final (c : Dev nD) : (dat5 V c).arrAt 2 cfg5.N = biasRelu (V c main_v77) (V c main_v78) :=
  (dat5 V c).arrAt_eq_of_cover 2 _ (fun t _ => flushed_eq V c t) cover

end Cert.KernelIdeal.Bias5

end
-- ==== Proof.Head6.lean ====
/-
  The head launch.  Its grid has one point, and each of its seven windows is a whole array: the point loads the
  per-graph sums, the column of node counts, both weight matrices and both one-row biases whole, and writes the whole
  result back.  So the result array ends holding the head's function of the six arrays as the launch found them.
-/
import proofs.«142709_j22333829939473_1_alg».proof.Proof.Gen.KernelIdeal.Frame
import proofs.«142709_j22333829939473_1_alg».proof.Proof.Stages

set_option maxRecDepth 16384

noncomputable section

namespace Cert.KernelIdeal.Head6

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LayerLaws Cert.Gcn

variable (V : (c : Dev nD) → (b : Ref sig .tc) → Buf (Elt Ideal) ((c : Thread nD τ).loc b))

theorem zeros : (![0, 0] : Fin 2 → Nat) = fun _ => 0 := funext fun a => by fin_cases a <;> rfl

/-- The head's index map of window `w`, as a function of the window's number. -/
def indexOf (t : Fin cfg6.N) : Fin 7 → Fin 2 → Nat
  | 0 => win6_0.index t | 1 => win6_1.index t | 2 => win6_2.index t | 3 => win6_3.index t
  | 4 => win6_4.index t | 5 => win6_5.index t | 6 => win6_6.index t

/-- Every window of the head sits at the origin, at the one grid point. -/
theorem index_maps : ∀ t : Fin cfg6.N, ∀ w : Fin 7, indexOf t w (0 : Fin 2) = 0 ∧ indexOf t w (1 : Fin 2) = 0 :=
  (by decide +kernel : ∀ t : Fin grid6.N, _)

/-- The sums' block is the whole array of per-graph sums. -/
theorem sums_block (c : Dev nD) (t : Fin cfg6.N) : (iblk6 V c 0 t : S2048x256.Idx → EReal) = V c main_v82 := by
  funext y
  show V c main_v82 (((cfg6.win 0).blk t).view.emb y) = V c main_v82 y
  refine congrArg (V c main_v82) (funext fun a => Fin.ext ?_)
  have e := index_maps t
  match a with
  | ⟨0, _⟩ => show win6_0.index t (0 : Fin 2) * 2048 + 1 * (y 0).val = (y 0).val; have h : win6_0.index t (0 : Fin 2) = 0 := (e 0).1; omega
  | ⟨1, _⟩ => show win6_0.index t (1 : Fin 2) * 256 + 1 * (y 1).val = (y 1).val; have h : win6_0.index t (1 : Fin 2) = 0 := (e 0).2; omega

/-- The counts' block is the whole column of node counts. -/
theorem counts_block (c : Dev nD) (t : Fin cfg6.N) : (iblk6 V c 1 t : S2048x1.Idx → EReal) = V c main_v87 := by
  funext y
  show V c main_v87 (((cfg6.win 1).blk t).view.emb y) = V c main_v87 y
  refine congrArg (V c main_v87) (funext fun a => Fin.ext ?_)
  have e := index_maps t
  match a with
  | ⟨0, _⟩ => show win6_1.index t (0 : Fin 2) * 2048 + 1 * (y 0).val = (y 0).val; have h : win6_1.index t (0 : Fin 2) = 0 := (e 1).1; omega
  | ⟨1, _⟩ => show win6_1.index t (1 : Fin 2) * 1 + 1 * (y 1).val = (y 1).val; have h : win6_1.index t (1 : Fin 2) = 0 := (e 1).2; omega

/-- The first weight block is the whole 256 × 128 matrix. -/
theorem wl_block (c : Dev nD) (t : Fin cfg6.N) : (iblk6 V c 2 t : S256x128.Idx → EReal) = V c main_arg9 := by
  funext y
  show V c main_arg9 (((cfg6.win 2).blk t).view.emb y) = V c main_arg9 y
  refine congrArg (V c main_arg9) (funext fun a => Fin.ext ?_)
  have e := index_maps t
  match a with
  | ⟨0, _⟩ => show win6_2.index t (0 : Fin 2) * 256 + 1 * (y 0).val = (y 0).val; have h : win6_2.index t (0 : Fin 2) = 0 := (e 2).1; omega
  | ⟨1, _⟩ => show win6_2.index t (1 : Fin 2) * 128 + 1 * (y 1).val = (y 1).val; have h : win6_2.index t (1 : Fin 2) = 0 := (e 2).2; omega

/-- The first bias block is the whole one-row bias. -/
theorem bl_block (c : Dev nD) (t : Fin cfg6.N) : (iblk6 V c 3 t : S1x128.Idx → EReal) = V c main_v88 := by
  funext y
  show V c main_v88 (((cfg6.win 3).blk t).view.emb y) = V c main_v88 y
  refine congrArg (V c main_v88) (funext fun a => Fin.ext ?_)
  have e := index_maps t
  match a with
  | ⟨0, _⟩ => show win6_3.index t (0 : Fin 2) * 1 + 1 * (y 0).val = (y 0).val; have h : win6_3.index t (0 : Fin 2) = 0 := (e 3).1; omega
  | ⟨1, _⟩ => show win6_3.index t (1 : Fin 2) * 128 + 1 * (y 1).val = (y 1).val; have h : win6_3.index t (1 : Fin 2) = 0 := (e 3).2; omega

/-- The second weight block is the whole 128 × 1 matrix. -/
theorem wo_block (c : Dev nD) (t : Fin cfg6.N) : (iblk6 V c 4 t : S128x1.Idx → EReal) = V c main_arg11 := by
  funext y
  show V c main_arg11 (((cfg6.win 4).blk t).view.emb y) = V c main_arg11 y
  refine congrArg (V c main_arg11) (funext fun a => Fin.ext ?_)
  have e := index_maps t
  match a with
  | ⟨0, _⟩ => show win6_4.index t (0 : Fin 2) * 128 + 1 * (y 0).val = (y 0).val; have h : win6_4.index t (0 : Fin 2) = 0 := (e 4).1; omega
  | ⟨1, _⟩ => show win6_4.index t (1 : Fin 2) * 1 + 1 * (y 1).val = (y 1).val; have h : win6_4.index t (1 : Fin 2) = 0 := (e 4).2; omega

/-- The second bias block is the whole one-entry bias. -/
theorem bo_block (c : Dev nD) (t : Fin cfg6.N) : (iblk6 V c 5 t : S1x1.Idx → EReal) = V c main_v89 := by
  funext y
  show V c main_v89 (((cfg6.win 5).blk t).view.emb y) = V c main_v89 y
  refine congrArg (V c main_v89) (funext fun a => Fin.ext ?_)
  have e := index_maps t
  match a with
  | ⟨0, _⟩ => show win6_5.index t (0 : Fin 2) * 1 + 1 * (y 0).val = (y 0).val; have h : win6_5.index t (0 : Fin 2) = 0 := (e 5).1; omega
  | ⟨1, _⟩ => show win6_5.index t (1 : Fin 2) * 1 + 1 * (y 1).val = (y 1).val; have h : win6_5.index t (1 : Fin 2) = 0 := (e 5).2; omega

/-- The result's block is the whole result: an index of the block is the same index of the array. -/
theorem result_block (t : Fin cfg6.N) (y : S2048x1.Idx) : ((cfg6.win 6).blk t).view.emb y = y := by
  refine funext fun a => Fin.ext ?_
  have e := index_maps t
  match a with
  | ⟨0, _⟩ => show win6_6.index t (0 : Fin 2) * 2048 + 1 * (y 0).val = (y 0).val; have h : win6_6.index t (0 : Fin 2) = 0 := (e 6).1; omega
  | ⟨1, _⟩ => show win6_6.index t (1 : Fin 2) * 1 + 1 * (y 1).val = (y 1).val; have h : win6_6.index t (1 : Fin 2) = 0 := (e 6).2; omega

/-- The head of equal operands is equal. -/
theorem head_congr {s s' : Mat 2048 256} {n n' : Mat 2048 1} {wl wl' : Mat 256 128} {bl bl' : Mat 1 128}
    {wo wo' : Mat 128 1} {bo bo' : Mat 1 1} (hs : s = s') (hn : n = n') (hwl : wl = wl') (hbl : bl = bl')
    (hwo : wo = wo') (hbo : bo = bo') : Stage.head s n wl bl wo bo = Stage.head s' n' wl' bl' wo' bo' := by
  subst hs hn hwl hbl hwo hbo; rfl

/-- What the one point writes back is the whole of the head of the six arrays. -/
theorem flushed_eq (c : Dev nD) (t : Fin cfg6.N) :
    (dat6 V c).flushed 6 t = ((cfg6.win 6).blk t).view.read (Elt Ideal)
      (Stage.head (V c main_v82) (V c main_v87) (V c main_arg9) (V c main_v88) (V c main_arg11) (V c main_v89)) := by
  show (cfg6.win 6).cut (grid6.coords t) ((dat6 V c).after 6 t) = _
  rw [after6_6]
  unfold out6_6
  rw [View.canon_unit_zero zeros]
  simp only [View.ld_unit_zero (S := S2048x256) zeros, View.ld_unit_zero (S := S2048x1) zeros,
    View.ld_unit_zero (S := S256x128) zeros, View.ld_unit_zero (S := S1x128) zeros,
    View.ld_unit_zero (S := S128x1) zeros, View.ld_unit_zero (S := S1x1) zeros]
  funext j
  refine (congrFun (Stage.head_eq _ _ _ _ _ _) j).trans ?_
  refine (congrFun (head_congr (sums_block V c t) (counts_block V c t) (wl_block V c t) (bl_block V c t)
    (wo_block V c t) (bo_block V c t)) j).trans ?_
  exact (congrArg _ (result_block t j)).symm

/-- An index of the result is in the one point's block. -/
theorem mem_block (t : Fin cfg6.N) (i : S2048x1.Idx) :
    i ∈ ((cfg6.win 6).blk t).view.set ↔ ∀ a : Fin 2, win6_6.index t a * S2048x1.size a ≤ (i a).val
      ∧ (i a).val < win6_6.index t a * S2048x1.size a + S2048x1.size a := by
  show i ∈ ((View.whole main_v90).slice (win6_6.rect t)).set ↔ _
  rw [View.set_slice_whole, Rect.mem_set_unit]
  exact Iff.rfl

/-- Every index of the result is in the one point's block. -/
theorem cover (i : S2048x1.Idx) :
    ∃ t : Fin cfg6.N, (cfg6.win 6).flush t = true ∧ i ∈ ((cfg6.win 6).blk t).view.set := by
  have h0 : (i 0).val < 2048 := (i 0).isLt
  have h1 : (i 1).val < 1 := (i 1).isLt
  let t : Fin cfg6.N := ⟨0, by have e : cfg6.N = 1 := N_6; omega⟩
  have e := index_maps t
  refine ⟨t, flush6_6 t, (mem_block t i).mpr fun a => ?_⟩
  match a with
  | ⟨0, _⟩ =>
    show win6_6.index t (0 : Fin 2) * 2048 ≤ (i 0).val ∧ (i 0).val < win6_6.index t (0 : Fin 2) * 2048 + 2048
    have h : win6_6.index t (0 : Fin 2) = 0 := (e 6).1
    omega
  | ⟨1, _⟩ =>
    show win6_6.index t (1 : Fin 2) * 1 ≤ (i 1).val ∧ (i 1).val < win6_6.index t (1 : Fin 2) * 1 + 1
    have h : win6_6.index t (1 : Fin 2) = 0 := (e 6).2
    omega

/-- After the launch the result array holds the head of the six arrays as the launch found them. -/
theorem final (c : Dev nD) : (dat6 V c).arrAt 6 cfg6.N
    = Stage.head (V c main_v82) (V c main_v87) (V c main_arg9) (V c main_v88) (V c main_arg11) (V c main_v89) :=
  (dat6 V c).arrAt_eq_of_cover 6 _ (fun t _ => flushed_eq V c t) cover

end Cert.KernelIdeal.Head6

end
-- ==== Proof.KernelNet.lean ====
/-
  The kernel's result is the network.

  Walk @main's boundaries.  Before the first launch the host lines build the edge buffers: senders, receivers and edge
  weights of `Cert.Net`.  No launch and no later host line writes those, nor any argument array, so they are the same
  at every later boundary.  The first dense launch leaves `x · W1`; the host lines after it aggregate that over the edges
  and recast the bias as a row; the bias launch leaves the first layer, `Cert.Net.layer`.  The next two layers go the
  same way from the layer before.  The last host lines sum the third layer's rows by graph and count each graph's nodes;
  the head launch leaves the pooled head of those, which is `Cert.Net.net` of the thirteen arguments.
-/
import proofs.«142709_j22333829939473_1_alg».proof.Proof.Gen.KernelIdeal.Frame
import proofs.«142709_j22333829939473_1_alg».proof.Proof.KGlue
import proofs.«142709_j22333829939473_1_alg».proof.Proof.Dense0
import proofs.«142709_j22333829939473_1_alg».proof.Proof.Bias1
import proofs.«142709_j22333829939473_1_alg».proof.Proof.Dense2
import proofs.«142709_j22333829939473_1_alg».proof.Proof.Bias3
import proofs.«142709_j22333829939473_1_alg».proof.Proof.Dense4
import proofs.«142709_j22333829939473_1_alg».proof.Proof.Bias5
import proofs.«142709_j22333829939473_1_alg».proof.Proof.Head6

set_option maxRecDepth 16384

noncomputable section

namespace Cert.KernelIdeal.Meets

open Idealize.ShloMosaic Idealize.ShloMosaic.TcCoe Idealize.ShloMosaic.ValueIdx Idealize.SL.Sem Idealize.ShloMosaic.StableHlo
open Cert.KernelIdeal Cert.KernelIdeal.Gen Cert.KernelIdeal.Glue Cert.LayerLaws Cert.Gcn Cert.Net

/-! ## The buffers nothing after the first launch's entry writes -/

/-- The argument arrays (but the edge list, read only before the first launch) and the three edge buffers. -/
def kept : List (Ref sig .tc) := [main_arg0, main_arg2, main_arg3, main_arg4, main_arg5, main_arg6, main_arg7, main_arg8, main_arg9, main_arg10, main_arg11, main_arg12, main_v3, main_v6, main_v31]

/-- Two boundaries' contents agree on the kept buffers. -/
def Agree (W W' : Valuation τ sig (Elt Ideal)) : Prop := ∀ b ∈ kept, W' (Proc.devRef .tc b) = W (Proc.devRef .tc b)

theorem Agree.trans {W W' W'' : Valuation τ sig (Elt Ideal)} (h : Agree W W') (h' : Agree W' W'') : Agree W W'' :=
  fun b hb => (h' b hb).trans (h b hb)

/-- The lines after the first dense launch write none of the kept buffers. -/
theorem keeps1 (W : Valuation τ sig (Elt Ideal)) : Agree W (after (hostOps1 (F := Ideal)) W) := fun b hb => by
  simp only [kept, List.mem_cons, List.mem_nil_iff, or_false] at hb
  rcases hb with rfl | rfl | rfl | rfl | rfl | rfl | rfl | rfl | rfl | rfl | rfl | rfl | rfl | rfl | rfl
  all_goals host_keeps hostOps1

/-- Nor do the lines after the second dense launch. -/
theorem keeps3 (W : Valuation τ sig (Elt Ideal)) : Agree W (after (hostOps3 (F := Ideal)) W) := fun b hb => by
  simp only [kept, List.mem_cons, List.mem_nil_iff, or_false] at hb
  rcases hb with rfl | rfl | rfl | rfl | rfl | rfl | rfl | rfl | rfl | rfl | rfl | rfl | rfl | rfl | rfl
  all_goals host_keeps hostOps3

/-- Nor the lines after the third. -/
theorem keeps5 (W : Valuation τ sig (Elt Ideal)) : Agree W (after (hostOps5 (F := Ideal)) W) := fun b hb => by
  simp only [kept, List.mem_cons, List.mem_nil_iff, or_false] at hb
  rcases hb with rfl | rfl | rfl | rfl | rfl | rfl | rfl | rfl | rfl | rfl | rfl | rfl | rfl | rfl | rfl
  all_goals host_keeps hostOps5

/-- Nor the lines before the head. -/
theorem keeps6 (W : Valuation τ sig (Elt Ideal)) : Agree W (after (hostOps6 (F := Ideal)) W) := fun b hb => by
  simp only [kept, List.mem_cons, List.mem_nil_iff, or_false] at hb
  rcases hb with rfl | rfl | rfl | rfl | rfl | rfl | rfl | rfl | rfl | rfl | rfl | rfl | rfl | rfl | rfl
  all_goals host_keeps hostOps6

variable (m : (ℓ : Loc nD τ sig) → Buf (Elt Ideal) ℓ) (ρ : Dev nD → PrngReg) (c : Dev nD)

/-! A launch changes only its own result array: an array it only reads ends as it was entered, and a buffer that is none
    of its arrays is not touched. -/

theorem across0 : Agree (W3 m ρ c) (W4 m ρ c) := fun b hb => by
  by_cases h_main_arg0 : b = main_arg0
  · subst h_main_arg0
    exact (W4_arr m ρ c 0).trans (((dat0 (V3 m ρ) c).arrAt_in 0 rfl _).trans (A_eq0 (V3 m ρ) c 0))
  by_cases h_main_arg3 : b = main_arg3
  · subst h_main_arg3
    exact (W4_arr m ρ c 1).trans (((dat0 (V3 m ρ) c).arrAt_in 1 rfl _).trans (A_eq0 (V3 m ρ) c 1))
  exact W4_of_ne m ρ c b fun w =>
    (by decide : ∀ b ∈ kept, b ≠ main_arg0 → b ≠ main_arg3 → ∀ w : Fin 3, Pipeline.arrRef spec0 w ≠ b) b hb h_main_arg0 h_main_arg3 w
theorem across1 : Agree (W5 m ρ c) (W6 m ρ c) := fun b hb =>
  W6_of_ne m ρ c b fun w => (by decide : ∀ b ∈ kept, ∀ w : Fin 3, Pipeline.arrRef spec1 w ≠ b) b hb w
theorem across2 : Agree (W6 m ρ c) (W7 m ρ c) := fun b hb => by
  by_cases h_main_arg5 : b = main_arg5
  · subst h_main_arg5
    exact (W7_arr m ρ c 1).trans (((dat2 (V6 m ρ) c).arrAt_in 1 rfl _).trans (A_eq2 (V6 m ρ) c 1))
  exact W7_of_ne m ρ c b fun w =>
    (by decide : ∀ b ∈ kept, b ≠ main_arg5 → ∀ w : Fin 3, Pipeline.arrRef spec2 w ≠ b) b hb h_main_arg5 w
theorem across3 : Agree (W8 m ρ c) (W9 m ρ c) := fun b hb =>
  W9_of_ne m ρ c b fun w => (by decide : ∀ b ∈ kept, ∀ w : Fin 3, Pipeline.arrRef spec3 w ≠ b) b hb w
theorem across4 : Agree (W9 m ρ c) (W10 m ρ c) := fun b hb => by
  by_cases h_main_arg7 : b = main_arg7
  · subst h_main_arg7
    exact (W10_arr m ρ c 1).trans (((dat4 (V9 m ρ) c).arrAt_in 1 rfl _).trans (A_eq4 (V9 m ρ) c 1))
  exact W10_of_ne m ρ c b fun w =>
    (by decide : ∀ b ∈ kept, b ≠ main_arg7 → ∀ w : Fin 3, Pipeline.arrRef spec4 w ≠ b) b hb h_main_arg7 w
theorem across5 : Agree (W11 m ρ c) (W12 m ρ c) := fun b hb =>
  W12_of_ne m ρ c b fun w => (by decide : ∀ b ∈ kept, ∀ w : Fin 3, Pipeline.arrRef spec5 w ≠ b) b hb w
theorem across6 : Agree (W13 m ρ c) (W14 m ρ c) := fun b hb => by
  by_cases h_main_arg9 : b = main_arg9
  · subst h_main_arg9
    exact (W14_arr m ρ c 2).trans (((dat6 (V13 m ρ) c).arrAt_in 2 rfl _).trans (A_eq6 (V13 m ρ) c 2))
  by_cases h_main_arg11 : b = main_arg11
  · subst h_main_arg11
    exact (W14_arr m ρ c 4).trans (((dat6 (V13 m ρ) c).arrAt_in 4 rfl _).trans (A_eq6 (V13 m ρ) c 4))
  exact W14_of_ne m ρ c b fun w =>
    (by decide : ∀ b ∈ kept, b ≠ main_arg9 → b ≠ main_arg11 → ∀ w : Fin 7, Pipeline.arrRef spec6 w ≠ b) b hb h_main_arg9 h_main_arg11 w

theorem upto4 : Agree (W3 m ρ c) (W4 m ρ c) := across0 m ρ c
theorem upto5 : Agree (W3 m ρ c) (W5 m ρ c) := (upto4 m ρ c).trans (keeps1 (W4 m ρ c))
theorem upto6 : Agree (W3 m ρ c) (W6 m ρ c) := (upto5 m ρ c).trans (across1 m ρ c)
theorem upto7 : Agree (W3 m ρ c) (W7 m ρ c) := (upto6 m ρ c).trans (across2 m ρ c)
theorem upto8 : Agree (W3 m ρ c) (W8 m ρ c) := (upto7 m ρ c).trans (keeps3 (W7 m ρ c))
theorem upto9 : Agree (W3 m ρ c) (W9 m ρ c) := (upto8 m ρ c).trans (across3 m ρ c)
theorem upto10 : Agree (W3 m ρ c) (W10 m ρ c) := (upto9 m ρ c).trans (across4 m ρ c)
theorem upto11 : Agree (W3 m ρ c) (W11 m ρ c) := (upto10 m ρ c).trans (keeps5 (W10 m ρ c))
theorem upto12 : Agree (W3 m ρ c) (W12 m ρ c) := (upto11 m ρ c).trans (across5 m ρ c)
theorem upto13 : Agree (W3 m ρ c) (W13 m ρ c) := (upto12 m ρ c).trans (keeps6 (W12 m ρ c))
theorem upto14 : Agree (W3 m ρ c) (W14 m ρ c) := (upto13 m ρ c).trans (across6 m ρ c)

/-! ## The first launch's entry: the arguments as launched, the edge buffers built -/

theorem arg0_at3 : W3 m ρ c (Proc.devRef .tc main_arg0) = m ((c.tc : Thread nD τ).loc main_arg0) :=
  (upto14 m ρ c main_arg0 (by decide)).symm.trans (W14_main_arg0 m ρ c)
theorem arg2_at3 : W3 m ρ c (Proc.devRef .tc main_arg2) = m ((c.tc : Thread nD τ).loc main_arg2) :=
  (upto14 m ρ c main_arg2 (by decide)).symm.trans (W14_main_arg2 m ρ c)
theorem arg3_at3 : W3 m ρ c (Proc.devRef .tc main_arg3) = m ((c.tc : Thread nD τ).loc main_arg3) :=
  (upto14 m ρ c main_arg3 (by decide)).symm.trans (W14_main_arg3 m ρ c)
theorem arg4_at3 : W3 m ρ c (Proc.devRef .tc main_arg4) = m ((c.tc : Thread nD τ).loc main_arg4) :=
  (upto14 m ρ c main_arg4 (by decide)).symm.trans (W14_main_arg4 m ρ c)
theorem arg5_at3 : W3 m ρ c (Proc.devRef .tc main_arg5) = m ((c.tc : Thread nD τ).loc main_arg5) :=
  (upto14 m ρ c main_arg5 (by decide)).symm.trans (W14_main_arg5 m ρ c)
theorem arg6_at3 : W3 m ρ c (Proc.devRef .tc main_arg6) = m ((c.tc : Thread nD τ).loc main_arg6) :=
  (upto14 m ρ c main_arg6 (by decide)).symm.trans (W14_main_arg6 m ρ c)
theorem arg7_at3 : W3 m ρ c (Proc.devRef .tc main_arg7) = m ((c.tc : Thread nD τ).loc main_arg7) :=
  (upto14 m ρ c main_arg7 (by decide)).symm.trans (W14_main_arg7 m ρ c)
theorem arg8_at3 : W3 m ρ c (Proc.devRef .tc main_arg8) = m ((c.tc : Thread nD τ).loc main_arg8) :=
  (upto14 m ρ c main_arg8 (by decide)).symm.trans (W14_main_arg8 m ρ c)
theorem arg9_at3 : W3 m ρ c (Proc.devRef .tc main_arg9) = m ((c.tc : Thread nD τ).loc main_arg9) :=
  (upto14 m ρ c main_arg9 (by decide)).symm.trans (W14_main_arg9 m ρ c)
theorem arg10_at3 : W3 m ρ c (Proc.devRef .tc main_arg10) = m ((c.tc : Thread nD τ).loc main_arg10) :=
  (upto14 m ρ c main_arg10 (by decide)).symm.trans (W14_main_arg10 m ρ c)
theorem arg11_at3 : W3 m ρ c (Proc.devRef .tc main_arg11) = m ((c.tc : Thread nD τ).loc main_arg11) :=
  (upto14 m ρ c main_arg11 (by decide)).symm.trans (W14_main_arg11 m ρ c)
theorem arg12_at3 : W3 m ρ c (Proc.devRef .tc main_arg12) = m ((c.tc : Thread nD τ).loc main_arg12) :=
  (upto14 m ρ c main_arg12 (by decide)).symm.trans (W14_main_arg12 m ρ c)

theorem src_at1 : W1 m ρ c (Proc.devRef .tc main_v3) = src (m ((c.tc : Thread nD τ).loc main_arg1)) := first_src (W0 m ρ c)
theorem dst_at1 : W1 m ρ c (Proc.devRef .tc main_v6) = dst (m ((c.tc : Thread nD τ).loc main_arg1)) := first_dst (W0 m ρ c)

theorem src_at2 : W2 m ρ c (Proc.devRef .tc main_v3) = src (m ((c.tc : Thread nD τ).loc main_arg1)) :=
  (show W2 m ρ c (Proc.devRef .tc main_v3) = W1 m ρ c (Proc.devRef .tc main_v3) by host_keeps hostOps0_1).trans (src_at1 m ρ c)
theorem dst_at2 : W2 m ρ c (Proc.devRef .tc main_v6) = dst (m ((c.tc : Thread nD τ).loc main_arg1)) :=
  (show W2 m ρ c (Proc.devRef .tc main_v6) = W1 m ρ c (Proc.devRef .tc main_v6) by host_keeps hostOps0_1).trans (dst_at1 m ρ c)

/-- The per-node factor at the second boundary is `dis` of the edge list. -/
theorem dis_at2 : W2 m ρ c (Proc.devRef .tc main_v16) = dis (m ((c.tc : Thread nD τ).loc main_arg1)) := by
  refine (where_select (W1 m ρ c)).trans ?_
  rw [show W1 m ρ c (Proc.devRef .tc main_v12) = _ from first_positive (W0 m ρ c),
    show W1 m ρ c (Proc.devRef .tc main_v15) = _ from first_recip (W0 m ρ c),
    show W1 m ρ c (Proc.devRef .tc main_cst_3) = _ from first_zero (W0 m ρ c)]
  rfl

theorem src_at3 : W3 m ρ c (Proc.devRef .tc main_v3) = src (m ((c.tc : Thread nD τ).loc main_arg1)) :=
  (show W3 m ρ c (Proc.devRef .tc main_v3) = W2 m ρ c (Proc.devRef .tc main_v3) by host_keeps hostOps0_2).trans (src_at2 m ρ c)
theorem dst_at3 : W3 m ρ c (Proc.devRef .tc main_v6) = dst (m ((c.tc : Thread nD τ).loc main_arg1)) :=
  (show W3 m ρ c (Proc.devRef .tc main_v6) = W2 m ρ c (Proc.devRef .tc main_v6) by host_keeps hostOps0_2).trans (dst_at2 m ρ c)
theorem norm_at3 : W3 m ρ c (Proc.devRef .tc main_v31) = norm (m ((c.tc : Thread nD τ).loc main_arg1)) := by
  refine (first_norm (W2 m ρ c)).trans ?_
  rw [dis_at2, src_at2, dst_at2, norm_eq]

/-- The edge buffers at a later boundary that agrees with the first launch's entry on the kept buffers. -/
theorem agg_at {W : Valuation τ sig (Elt Ideal)} (h : Agree (W3 m ρ c) W) (y : Mat 50000 256) :
    aggWith (W (Proc.devRef .tc main_v3)) (W (Proc.devRef .tc main_v6)) (W (Proc.devRef .tc main_v31)) y = agg (m ((c.tc : Thread nD τ).loc main_arg1)) y := by
  rw [h main_v3 (by decide), h main_v6 (by decide), h main_v31 (by decide), src_at3, dst_at3, norm_at3]
  rfl

/-! ## Layer by layer -/

/-- The three layers of the network's arguments. -/
abbrev h1 := layer (m ((c.tc : Thread nD τ).loc main_arg1)) (m ((c.tc : Thread nD τ).loc main_arg0)) (m ((c.tc : Thread nD τ).loc main_arg3)) (m ((c.tc : Thread nD τ).loc main_arg4))
abbrev h2 := layer (m ((c.tc : Thread nD τ).loc main_arg1)) (h1 m c) (m ((c.tc : Thread nD τ).loc main_arg5)) (m ((c.tc : Thread nD τ).loc main_arg6))
abbrev h3 := layer (m ((c.tc : Thread nD τ).loc main_arg1)) (h2 m c) (m ((c.tc : Thread nD τ).loc main_arg7)) (m ((c.tc : Thread nD τ).loc main_arg8))

theorem dense1_out : W4 m ρ c (Proc.devRef .tc main_v32) = mm (m ((c.tc : Thread nD τ).loc main_arg0)) (m ((c.tc : Thread nD τ).loc main_arg3)) := by
  refine (W4_arr m ρ c 2).trans ((Dense0.final (V3 m ρ) c).trans ?_)
  show mm (W3 m ρ c (Proc.devRef .tc main_arg0)) (W3 m ρ c (Proc.devRef .tc main_arg3)) = mm (m ((c.tc : Thread nD τ).loc main_arg0)) (m ((c.tc : Thread nD τ).loc main_arg3))
  rw [arg0_at3, arg3_at3]

theorem layer1_out : W6 m ρ c (Proc.devRef .tc main_v47) = h1 m c := by
  refine (W6_arr m ρ c 2).trans ((Bias1.final (V5 m ρ) c).trans ?_)
  show biasRelu (W5 m ρ c (Proc.devRef .tc main_v45)) (W5 m ρ c (Proc.devRef .tc main_v46))
    = biasRelu (agg (m ((c.tc : Thread nD τ).loc main_arg1)) (mm (m ((c.tc : Thread nD τ).loc main_arg0)) (m ((c.tc : Thread nD τ).loc main_arg3)))) (rowVec (m ((c.tc : Thread nD τ).loc main_arg4)))
  rw [show W5 m ρ c (Proc.devRef .tc main_v45) = _ from agg1 (W4 m ρ c), agg_at m ρ c (upto4 m ρ c), dense1_out,
    show W5 m ρ c (Proc.devRef .tc main_v46) = _ from bias1 (W4 m ρ c), upto4 m ρ c main_arg4 (by decide), arg4_at3,
    shapeCast_rowVec]

theorem dense2_out : W7 m ρ c (Proc.devRef .tc main_v48) = mm (h1 m c) (m ((c.tc : Thread nD τ).loc main_arg5)) := by
  refine (W7_arr m ρ c 2).trans ((Dense2.final (V6 m ρ) c).trans ?_)
  show mm (W6 m ρ c (Proc.devRef .tc main_v47)) (W6 m ρ c (Proc.devRef .tc main_arg5)) = mm (h1 m c) (m ((c.tc : Thread nD τ).loc main_arg5))
  rw [layer1_out, upto6 m ρ c main_arg5 (by decide), arg5_at3]

theorem layer2_out : W9 m ρ c (Proc.devRef .tc main_v63) = h2 m c := by
  refine (W9_arr m ρ c 2).trans ((Bias3.final (V8 m ρ) c).trans ?_)
  show biasRelu (W8 m ρ c (Proc.devRef .tc main_v61)) (W8 m ρ c (Proc.devRef .tc main_v62))
    = biasRelu (agg (m ((c.tc : Thread nD τ).loc main_arg1)) (mm (h1 m c) (m ((c.tc : Thread nD τ).loc main_arg5)))) (rowVec (m ((c.tc : Thread nD τ).loc main_arg6)))
  rw [show W8 m ρ c (Proc.devRef .tc main_v61) = _ from agg3 (W7 m ρ c), agg_at m ρ c (upto7 m ρ c), dense2_out,
    show W8 m ρ c (Proc.devRef .tc main_v62) = _ from bias3 (W7 m ρ c), upto7 m ρ c main_arg6 (by decide), arg6_at3,
    shapeCast_rowVec]

theorem dense3_out : W10 m ρ c (Proc.devRef .tc main_v64) = mm (h2 m c) (m ((c.tc : Thread nD τ).loc main_arg7)) := by
  refine (W10_arr m ρ c 2).trans ((Dense4.final (V9 m ρ) c).trans ?_)
  show mm (W9 m ρ c (Proc.devRef .tc main_v63)) (W9 m ρ c (Proc.devRef .tc main_arg7)) = mm (h2 m c) (m ((c.tc : Thread nD τ).loc main_arg7))
  rw [layer2_out, upto9 m ρ c main_arg7 (by decide), arg7_at3]

theorem layer3_out : W12 m ρ c (Proc.devRef .tc main_v79) = h3 m c := by
  refine (W12_arr m ρ c 2).trans ((Bias5.final (V11 m ρ) c).trans ?_)
  show biasRelu (W11 m ρ c (Proc.devRef .tc main_v77)) (W11 m ρ c (Proc.devRef .tc main_v78))
    = biasRelu (agg (m ((c.tc : Thread nD τ).loc main_arg1)) (mm (h2 m c) (m ((c.tc : Thread nD τ).loc main_arg7)))) (rowVec (m ((c.tc : Thread nD τ).loc main_arg8)))
  rw [show W11 m ρ c (Proc.devRef .tc main_v77) = _ from agg5 (W10 m ρ c), agg_at m ρ c (upto10 m ρ c), dense3_out,
    show W11 m ρ c (Proc.devRef .tc main_v78) = _ from bias5 (W10 m ρ c), upto10 m ρ c main_arg8 (by decide), arg8_at3,
    shapeCast_rowVec]

/-! ## The head -/

/-- The kernel's result is the network of its arguments. -/
theorem result_eq : W14 m ρ c (Proc.devRef .tc main_v90)
    = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  refine (W14_arr m ρ c 6).trans ((Head6.final (V13 m ρ) c).trans ?_)
  show Stage.head (W13 m ρ c (Proc.devRef .tc main_v82)) (W13 m ρ c (Proc.devRef .tc main_v87)) (W13 m ρ c (Proc.devRef .tc main_arg9))
      (W13 m ρ c (Proc.devRef .tc main_v88)) (W13 m ρ c (Proc.devRef .tc main_arg11)) (W13 m ρ c (Proc.devRef .tc main_v89)) = _
  rw [show W13 m ρ c (Proc.devRef .tc main_v82) = _ from pooled (W12 m ρ c), layer3_out,
    show W13 m ρ c (Proc.devRef .tc main_v87) = _ from counted (W12 m ρ c),
    show W13 m ρ c (Proc.devRef .tc main_v88) = _ from head_bias1 (W12 m ρ c),
    show W13 m ρ c (Proc.devRef .tc main_v89) = _ from head_bias2 (W12 m ρ c),
    upto12 m ρ c main_arg2 (by decide), arg2_at3, upto12 m ρ c main_arg10 (by decide), arg10_at3,
    upto12 m ρ c main_arg12 (by decide), arg12_at3, upto13 m ρ c main_arg9 (by decide), arg9_at3,
    upto13 m ρ c main_arg11 (by decide), arg11_at3, shapeCast_colVec, shapeCast_rowVec, shapeCast_rowVec]
  rfl

end Cert.KernelIdeal.Meets

end
-- ==== Proof.lean ====
/-
  A three-layer graph convolution network with a pooled head, as a kernel of seven launches and as a plain host
  program, computes one function on the extended reals.

  The kernel computes each layer's dense map `h · W` tile by tile (ten tiles of 5000 rows, the operands recast to a
  narrower float format first, which is the identity on the extended reals, and accumulated from zero), aggregates it
  over the edges on the host, and adds the bias and clamps at zero tile by tile; the reference does the same with one
  host product, one add and one maximum per layer.  A product's, and a bias-and-clamp's, entry `(p, q)` reads row `p`
  of its first operand only, so the tiles of the result are the rows of the whole result.  The head — mean by graph,
  a dense layer clamped at zero, a dense layer — is one launch on whole arrays against five host operations with the
  same entries.  The gathers and scatter-adds between are the same host operations applied to equal arrays on both
  sides.  Nothing distributes a product over a sum or cancels, so no entry needs to be finite: the precondition is
  not used by the value claim.

  `Cert.Net.net` (Proof/Net.lean) is that function; Proof/KernelNet.lean shows the kernel's result buffer ends at it
  (launch by launch: Proof/Dense0 … Head6, the host lines between: Proof/KGlue.lean, the run: Proof/KernelRun.lean) and
  Proof/RefNet.lean that the reference's does.  The ideal pass rewrote nothing in the kernel, so `preserves` has no
  conjunct.
-/
import proofs.«142709_j22333829939473_1_alg».proof.Defs
import proofs.«142709_j22333829939473_1_alg».proof.Proof.Gen.Kernel
import proofs.«142709_j22333829939473_1_alg».proof.Proof.Gen.Kernel.Skeleton
import proofs.«142709_j22333829939473_1_alg».proof.Proof.Gen.Kernel.Launch
import proofs.«142709_j22333829939473_1_alg».proof.Proof.Gen.Kernel.Points
import proofs.«142709_j22333829939473_1_alg».proof.Proof.Gen.Kernel.Frame
import proofs.«142709_j22333829939473_1_alg».proof.Proof.Gen.KernelIdeal
import proofs.«142709_j22333829939473_1_alg».proof.Proof.Gen.KernelIdeal.Skeleton
import proofs.«142709_j22333829939473_1_alg».proof.Proof.Gen.KernelIdeal.Launch
import proofs.«142709_j22333829939473_1_alg».proof.Proof.Gen.KernelIdeal.Points
import proofs.«142709_j22333829939473_1_alg».proof.Proof.Gen.KernelIdeal.Frame
import proofs.«142709_j22333829939473_1_alg».proof.Proof.Gen.ReferenceIdeal
import proofs.«142709_j22333829939473_1_alg».proof.Proof.Gen.Pre_finite_inputs
import proofs.«142709_j22333829939473_1_alg».proof.Proof.ReferenceRun
import proofs.«142709_j22333829939473_1_alg».proof.Proof.RefNet
import proofs.«142709_j22333829939473_1_alg».proof.Proof.KernelRun
import proofs.«142709_j22333829939473_1_alg».proof.Proof.KernelNet
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel [Cert.Kernel.Facts] [Cert.Pre_finite_inputs.Facts] : Cert.frame_Kernel :=
  fun m ρ _ => Cert.Kernel.Gen.frame m ρ

/-- So does the idealized kernel. -/
theorem frame_kernelIdeal [Cert.KernelIdeal.Facts] [Cert.Pre_finite_inputs.Facts] : Cert.frame_KernelIdeal :=
  fun m ρ _ => Cert.KernelIdeal.Gen.frame m ρ

/-- The reference is host lines only: its run, with the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.ValueP.run (F := Ideal) m ρ)

/-- Both idealized programs end with their result at `Cert.Net.net` of the arguments, which agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Meets.result_eq m ρ c), (h c).2⟩)
      (Cert.KernelIdeal.Named.run (F := Ideal) m ρ)
  · refine (θ_run Cert.ReferenceIdeal.defs _ _).mono (fun r h c => ⟨(h c).1.trans ?_, (h c).2⟩)
      (Cert.ReferenceIdeal.ValueP.run (F := Ideal) m' ρ')
    obtain ⟨a0, a1, a2, a3, a4, a5, a6, a7, a8, a9, a10, a11, a12⟩ := hagree c
    rw [Cert.ReferenceIdeal.Meets.result_eq m' c, a0, a1, a2, a3, a4, a5, a6, a7, a8, a9, a10, a11, a12]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
